-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S192x64 : Shape := ⟨2, ![192, 64]⟩
abbrev S192 : Shape := ⟨1, ![192]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S192x64 .f32) (main_arg2 : FVec F S192 .f32) (main_arg3 : FVec F S1024x1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S192x64 .f32 := Host.absf main_arg1
  let main_cst_0 : FVec F S_ .f32 := constant S_ .f32 0x7F800000#32
  let main_v5 : FVec F S192x64 .f32 := broadcastInDim S192x64 ![] bcast_S_S192x64 main_cst_0
  let main_v6 : IVec S192x64 1 := cmpf .olt main_v4 main_v5
  let main_c_1 : IVec S_ 1 := constantI S_ 1 1#1
  let main_v7 : IVec S_ 1 := (fun x v => Host.reduce IntOp.andi x v reducesTo_S192x64_S_d0_1 h_S_) main_v6 main_c_1
  let main_v8 : IVec S_ 1 := andi main_v3 main_v7
  let main_v9 : FVec F S192 .f32 := Host.absf main_arg2
  let main_cst_2 : FVec F S_ .f32 := constant S_ .f32 0x7F800000#32
  let main_v10 : FVec F S192 .f32 := broadcastInDim S192 ![] bcast_S_S192 main_cst_2
  let main_v11 : IVec S192 1 := cmpf .olt main_v9 main_v10
  let main_c_3 : IVec S_ 1 := constantI S_ 1 1#1
  let main_v12 : IVec S_ 1 := (fun x v => Host.reduce IntOp.andi x v reducesTo_S192_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S192x64 : Shape := ⟨2, ![192, 64]⟩
abbrev S192 : Shape := ⟨1, ![192]⟩
abbrev S1024x1024 : Shape := ⟨2, ![1024, 1024]⟩
abbrev S1024 : Shape := ⟨1, ![1024]⟩
abbrev S64x64 : Shape := ⟨2, ![64, 64]⟩
abbrev S64 : Shape := ⟨1, ![64]⟩
abbrev S1x512x128 : Shape := ⟨3, ![1, 512, 128]⟩
abbrev S1x2048x128 : Shape := ⟨3, ![1, 2048, 128]⟩
abbrev S1x512x64 : Shape := ⟨3, ![1, 512, 64]⟩
abbrev S512x64 : Shape := ⟨2, ![512, 64]⟩
abbrev S1x2048x64 : Shape := ⟨3, ![1, 2048, 64]⟩
abbrev S2048x64 : Shape := ⟨2, ![2048, 64]⟩
abbrev S1x64 : Shape := ⟨2, ![1, 64]⟩
abbrev S512x2048 : Shape := ⟨2, ![512, 2048]⟩
abbrev S512 : Shape := ⟨1, ![512]⟩
abbrev S512x1 : Shape := ⟨2, ![512, 1]⟩
abbrev S512x128 : Shape := ⟨2, ![512, 128]⟩
abbrev S8192x1024 : Shape := ⟨2, ![8192, 1024]⟩
abbrev S512x1024 : Shape := ⟨2, ![512, 1024]⟩
abbrev S1x1024 : Shape := ⟨2, ![1, 1024]⟩

abbrev nBuf : Space → Nat
  | .hbm => 20
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S192x64, .f32⟩
  | .hbm, ⟨2, _⟩ => ⟨S192, .f32⟩
  | .hbm, ⟨3, _⟩ => ⟨S1024x1024, .f32⟩
  | .hbm, ⟨4, _⟩ => ⟨S1024, .f32⟩
  | .hbm, ⟨5, _⟩ => ⟨S4x2048x1024, .bf16⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64x64, .bf16⟩
  | .hbm, ⟨13, _⟩ => ⟨S64x64, .bf16⟩
  | .hbm, ⟨14, _⟩ => ⟨S64x64, .bf16⟩
  | .hbm, ⟨15, _⟩ => ⟨S4x2048x1024, .bf16⟩
  | .hbm, ⟨16, _⟩ => ⟨S1024x1024, .bf16⟩
  | .hbm, ⟨17, _⟩ => ⟨S8192x1024, .bf16⟩
  | .hbm, ⟨18, _⟩ => ⟨S8192x1024, .f32⟩
  | .hbm, ⟨19, _⟩ => ⟨S4x2048x1024, .f32⟩
  | .local _ .vmem, ⟨0, _⟩ => ⟨S1x512x128, .bf16⟩
  | .local _ .vmem, ⟨1, _⟩ => ⟨S1x512x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S64x64, .bf16⟩
  | .local _ .vmem, ⟨5, _⟩ => ⟨S64x64, .bf16⟩
  | .local _ .vmem, ⟨6, _⟩ => ⟨S64x64, .bf16⟩
  | .local _ .vmem, ⟨7, _⟩ => ⟨S64, .f32⟩
  | .local _ .vmem, ⟨8, _⟩ => ⟨S64, .f32⟩
  | .local _ .vmem, ⟨9, _⟩ => ⟨S64, .f32⟩
  | .local _ .vmem, ⟨10, _⟩ => ⟨S1x512x128, .bf16⟩
  | .local _ .vmem, ⟨11, _⟩ => ⟨S1x512x128, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1024, .f32⟩
  | .local _ .vmem, ⟨16, _⟩ => ⟨S512x1024, .f32⟩
  | .local _ .vmem, ⟨17, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  slices_S192x64_S64x64_0_0 : S192x64.Slices ![0, 0] S64x64
  slices_S192x64_S64x64_64_0 : S192x64.Slices ![64, 0] S64x64
  slices_S192x64_S64x64_128_0 : S192x64.Slices ![128, 0] S64x64
  slices_S192_S64_0 : S192.Slices ![0] S64
  slices_S192_S64_64 : S192.Slices ![64] S64
  slices_S192_S64_128 : S192.Slices ![128] S64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S64 : S64.ShapeCasts S64
  inb_S1x512x128_S1x512x64_0_0_0 : ∀ a, (![0, 0, 0] : Fin 3 → Nat) a + S1x512x64.size a ≤ S1x512x128.size a
  h_S1x512x64 : 0 < S1x512x64.numel
  shapeCasts_S1x512x64_S512x64 : S1x512x64.ShapeCasts S512x64
  inb_S1x2048x128_S1x2048x64_0_0_0 : ∀ a, (![0, 0, 0] : Fin 3 → Nat) a + S1x2048x64.size a ≤ S1x2048x128.size a
  h_S1x2048x64 : 0 < S1x2048x64.numel
  shapeCasts_S1x2048x64_S2048x64 : S1x2048x64.ShapeCasts S2048x64
  shapeCasts_S64_S1x64 : S64.ShapeCasts S1x64
  broadcasts_S1x64_S512x64 : S1x64.Broadcasts S512x64
  broadcasts_S1x64_S2048x64 : S1x64.Broadcasts S2048x64
  reduces_S512x2048_S512 : S512x2048.Reduces [1] S512
  shapeCasts_S512_S512x1 : S512.ShapeCasts S512x1
  broadcasts_S512x1_S512x2048 : S512x1.Broadcasts S512x2048
  inb_S1x512x128_S1x512x64_0_0_64 : ∀ a, (![0, 0, 64] : Fin 3 → Nat) a + S1x512x64.size a ≤ S1x512x128.size a
  inb_S1x2048x128_S1x2048x64_0_0_64 : ∀ a, (![0, 0, 64] : Fin 3 → Nat) a + S1x2048x64.size a ≤ S1x2048x128.size a
  concatenates_S512x64_S512x64_S512x128_d1 : Shape.Concatenates [S512x64, S512x64] S512x128 1
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S8192x1024_S4x2048x1024 : S8192x1024.ShapeCasts S4x2048x1024
  dot_S512x64_S64x64_S512x64_1_1_0_0_n_n_wf : DotDims.WF S512x64 S64x64 S512x64 [1] [1] [0] [0] [] []
  dot_S2048x64_S64x64_S2048x64_1_1_0_0_n_n_wf : DotDims.WF S2048x64 S64x64 S2048x64 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S4x2048x1024.size a
  hwx0_0 : ∀ i : grid0.Coords, EltTy.bits .bf16 = 32 ∨ (Rect.block (s := S4x2048x1024) S1x512x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S4x2048x1024.size a
  hwx0_1 : ∀ i : grid0.Coords, EltTy.bits .bf16 = 32 ∨ (Rect.block (s := S4x2048x1024) S1x2048x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x128.size a ≤ S4x2048x1024.size a
  hwx0_8 : ∀ i : grid0.Coords, EltTy.bits .bf16 = 32 ∨ (Rect.block (s := S4x2048x1024) S1x512x128.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .bf16 = 32 ∨ (Rect.block (s := S8192x1024) S512x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x1024.size a
  hwx1_3 : ∀ i : grid1.Coords, EltTy.bits .f32 = 32 ∨ (Rect.block (s := S8192x1024) S512x1024.size (cc1_transform_3 i) (hinb1_3 i)).WholeWords (EltTy.packing .f32)

variable [Facts₀]

def dot_S512x64_S64x64_S512x64_1_1_0_0_n_n : DotDims S512x64 S64x64 S512x64 where
  lhsContracting := [1]
  rhsContracting := [1]
  lhsNonContracting := [0]
  rhsNonContracting := [0]
  lhsBatch := []
  rhsBatch := []
  wf := dot_S512x64_S64x64_S512x64_1_1_0_0_n_n_wf
def dot_S2048x64_S64x64_S2048x64_1_1_0_0_n_n : DotDims S2048x64 S64x64 S2048x64 where
  lhsContracting := [1]
  rhsContracting := [1]
  lhsNonContracting := [0]
  rhsNonContracting := [0]
  lhsBatch := []
  rhsBatch := []
  wf := dot_S2048x64_S64x64_S2048x64_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x512x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v12) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S192x64 : Shape := ⟨2, ![192, 64]⟩
abbrev S192 : Shape := ⟨1, ![192]⟩
abbrev S1024x1024 : Shape := ⟨2, ![1024, 1024]⟩
abbrev S1024 : Shape := ⟨1, ![1024]⟩
abbrev S4x2048x16x64 : Shape := ⟨4, ![4, 2048, 16, 64]⟩
abbrev S4x16x2048x64 : Shape := ⟨4, ![4, 16, 2048, 64]⟩
abbrev S4x16x2048x192 : Shape := ⟨4, ![4, 16, 2048, 192]⟩
abbrev S1x1x1x192 : Shape := ⟨4, ![1, 1, 1, 192]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S192x64, .f32⟩
  | .hbm, ⟨2, _⟩ => ⟨S192, .f32⟩
  | .hbm, ⟨3, _⟩ => ⟨S1024x1024, .f32⟩
  | .hbm, ⟨4, _⟩ => ⟨S1024, .f32⟩
  | .hbm, ⟨5, _⟩ => ⟨S4x2048x16x64, .f32⟩
  | .hbm, ⟨6, _⟩ => ⟨S4x16x2048x64, .f32⟩
  | .hbm, ⟨7, _⟩ => ⟨S4x16x2048x192, .f32⟩
  | .hbm, ⟨8, _⟩ => ⟨S1x1x1x192, .f32⟩
  | .hbm, ⟨9, _⟩ => ⟨S4x16x2048x192, .f32⟩
  | .hbm, ⟨10, _⟩ => ⟨S4x16x2048x192, .f32⟩
  | .hbm, ⟨11, _⟩ => ⟨S4x16x2048x64, .f32⟩
  | .hbm, ⟨12, _⟩ => ⟨S4x16x2048x64, .f32⟩
  | .hbm, ⟨13, _⟩ => ⟨S4x16x2048x64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4x16x2048x2048, .f32⟩
  | .hbm, ⟨19, _⟩ => ⟨S4x16x2048x2048, .f32⟩
  | .hbm, ⟨20, _⟩ => ⟨S4x16x2048x2048, .f32⟩
  | .hbm, ⟨21, _⟩ => ⟨S_, .f32⟩
  | .hbm, ⟨22, _⟩ => ⟨S4x16x2048, .f32⟩
  | .hbm, ⟨23, _⟩ => ⟨S_, .f32⟩
  | .hbm, ⟨24, _⟩ => ⟨S4x16x2048, .f32⟩
  | .hbm, ⟨25, _⟩ => ⟨S4x16x2048, .f32⟩
  | .hbm, ⟨26, _⟩ => ⟨S4x16x2048x1, .f32⟩
  | .hbm, ⟨27, _⟩ => ⟨S4x16x2048x2048, .f32⟩
  | .hbm, ⟨28, _⟩ => ⟨S4x16x2048x2048, .f32⟩
  | .hbm, ⟨29, _⟩ => ⟨S4x16x2048x2048, .f32⟩
  | .hbm, ⟨30, _⟩ => ⟨S_, .f32⟩
  | .hbm, ⟨31, _⟩ => ⟨S4x16x2048, .f32⟩
  | .hbm, ⟨32, _⟩ => ⟨S4x16x2048x1, .f32⟩
  | .hbm, ⟨33, _⟩ => ⟨S4x16x2048x2048, .f32⟩
  | .hbm, ⟨34, _⟩ => ⟨S4x16x2048x2048, .f32⟩
  | .hbm, ⟨35, _⟩ => ⟨S4x16x2048x64, .f32⟩
  | .hbm, ⟨36, _⟩ => ⟨S4x2048x16x64, .f32⟩
  | .hbm, ⟨37, _⟩ => ⟨S4x2048x1024, .f32⟩
  | .hbm, ⟨38, _⟩ => ⟨S4x2048x1024, .f32⟩
  | .hbm, ⟨39, _⟩ => ⟨S1x1x1024, .f32⟩
  | .hbm, ⟨40, _⟩ => ⟨S4x2048x1024, .f32⟩
  | .hbm, ⟨41, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]

class Facts₀ : Prop where
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S192_S1x1x1x192_3 : S192.BroadcastsInDim S1x1x1x192 (![3] : Fin 1 → Fin S1x1x1x192.rank)
  bcast_S1x1x1x192_S4x16x2048x192_0_1_2_3 : S1x1x1x192.BroadcastsInDim S4x16x2048x192 (![0, 1, 2, 3] : Fin 4 → Fin S4x16x2048x192.rank)
  slices_S4x16x2048x192_S4x16x2048x64_0_0_0_0 : S4x16x2048x192.Slices ![0, 0, 0, 0] S4x16x2048x64
  slices_S4x16x2048x192_S4x16x2048x64_0_0_0_64 : S4x16x2048x192.Slices ![0, 0, 0, 64] S4x16x2048x64
  slices_S4x16x2048x192_S4x16x2048x64_0_0_0_128 : S4x16x2048x192.Slices ![0, 0, 0, 128] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x16x2048x64_S192x64_S4x16x2048x192_3_1_012_0_n_n_wf : DotDims.WF S4x16x2048x64 S192x64 S4x16x2048x192 [3] [1] [0, 1, 2] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x16x2048x64_S192x64_S4x16x2048x192_3_1_012_0_n_n : DotDims S4x16x2048x64 S192x64 S4x16x2048x192 where
  lhsContracting := [3]
  rhsContracting := [1]
  lhsNonContracting := [0, 1, 2]
  rhsNonContracting := [0]
  lhsBatch := []
  rhsBatch := []
  wf := dot_S4x16x2048x64_S192x64_S4x16x2048x192_3_1_012_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.KFrame0.lean ====
/-
  The attention region: what one grid point does to its blocks.

  The grid has 4 x 8 x 4 points (batch, pair of heads, tile of 512 query rows). A point reads, from the one
  [4, 2048, 1024] input array, the [512, 128] tile of query rows and the [2048, 128] band of all key / value rows of its
  pair of heads (two windows on the same array), the three 64 x 64 weight matrices and the three 64-vectors, and writes the
  [512, 128] tile of the attention output. The body loads the input blocks (the two 64-column halves of each tile
  separately), forms one value and stores it over the whole output block (it also loads the output block first and
  drops what it loaded). So after the body the output block is a function of the eight input blocks alone, and the
  input blocks are as they were.
-/
import proofs.«144325_j47253230190881_2_alg».proof.Proof.Gen.Kernel.Launch
import proofs.«144325_j47253230190881_2_alg».proof.Proof.Gen.Kernel.Skeleton
import proofs.«144325_j47253230190881_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body loads and stores through: the whole weight and bias blocks, the left and right 64
    columns of the query tile and of the key / value band, the whole output tile. -/
abbrev r0_w : Rect S64x64 := Rect.unit (s := S64x64) ![0, 0] S64x64.size inb_S64x64_S64x64_0_0
abbrev r0_b : Rect S64 := Rect.unit (s := S64) ![0] S64.size inb_S64_S64_0
abbrev r0_ql : Rect S1x512x128 := Rect.unit (s := S1x512x128) ![0, 0, 0] S1x512x64.size inb_S1x512x128_S1x512x64_0_0_0
abbrev r0_qr : Rect S1x512x128 := Rect.unit (s := S1x512x128) ![0, 0, 64] S1x512x64.size inb_S1x512x128_S1x512x64_0_0_64
abbrev r0_kl : Rect S1x2048x128 := Rect.unit (s := S1x2048x128) ![0, 0, 0] S1x2048x64.size inb_S1x2048x128_S1x2048x64_0_0_0
abbrev r0_kr : Rect S1x2048x128 := Rect.unit (s := S1x2048x128) ![0, 0, 64] S1x2048x64.size inb_S1x2048x128_S1x2048x64_0_0_64
abbrev r0_o : Rect S1x512x128 := Rect.unit (s := S1x512x128) ![0, 0, 0] S1x512x128.size inb_S1x512x128_S1x512x128_0_0_0

/-- The output tile after the body, from the eight input blocks: its one store, over the whole tile. -/
def out0_8 (x0 : Vec F S1x512x128 .bf16) (x1 : Vec F S1x2048x128 .bf16) (x2 x3 x4 : Vec F S64x64 .bf16) (x5 x6 x7 : Vec F S64 .f32) :
    Vec F S1x512x128 .bf16 :=
  View.canon [⟨r0_o, k0_pay1 (k0_pay12 (k0_pay2 (View.ld x2 r0_w)) (k0_pay3 (View.ld x3 r0_w)) (k0_pay4 (View.ld x4 r0_w)) (k0_pay5 (View.ld x5 r0_b)) (k0_pay6 (View.ld x6 r0_b)) (k0_pay7 (View.ld x7 r0_b))
      (k0_pay9 (View.ld x4 r0_w) (View.ld x7 r0_b) (View.ld x1 r0_kl))
      (k0_pay10 (View.ld x2 r0_w) (View.ld x3 r0_w) (View.ld x5 r0_b) (View.ld x6 r0_b) (View.ld x0 r0_ql) (View.ld x1 r0_kl))
      (k0_pay11 (View.ld x2 r0_w) (View.ld x3 r0_w) (View.ld x5 r0_b) (View.ld x6 r0_b) (View.ld x0 r0_ql) (View.ld x1 r0_kl))
      (View.ld x0 r0_qr) (View.ld x1 r0_kr))⟩]

/-- The one store covers the tile. -/
theorem cover0_8 (p0 : Vec F S1x512x128 .bf16) (y : S1x512x128.Idx) :
    ∃ pc ∈ ([⟨r0_o, p0⟩] : List (View.Piece (Elt F) S1x512x128 .bf16)), y ∈ pc.1.set :=
  View.cover_of_tiled [⟨r0_o, p0⟩] S1x512x128.size (by rfl) y

set_option maxHeartbeats 4000000 in
/-- The body on whole staging memrefs: the inputs' contents are kept, the output's becomes `out0_8` of them. -/
theorem sound_kernel0 (c : Dev nD) (E : Set ℕ) (i : grid0.Coords)
    (arg3 : Memref sig .tc .vmem S1x512x128 .bf16) (harg3 : arg3.IsWhole) (arg4 : Memref sig .tc .vmem S1x2048x128 .bf16) (harg4 : arg4.IsWhole)
    (arg5 : Memref sig .tc .vmem S64x64 .bf16) (harg5 : arg5.IsWhole) (arg6 : Memref sig .tc .vmem S64x64 .bf16) (harg6 : arg6.IsWhole)
    (arg7 : Memref sig .tc .vmem S64x64 .bf16) (harg7 : arg7.IsWhole) (arg8 : Memref sig .tc .vmem S64 .f32) (harg8 : arg8.IsWhole)
    (arg9 : Memref sig .tc .vmem S64 .f32) (harg9 : arg9.IsWhole) (arg10 : Memref sig .tc .vmem S64 .f32) (harg10 : arg10.IsWhole)
    (arg11 : Memref sig .tc .vmem S1x512x128 .bf16) (harg11 : arg11.IsWhole)
    (x0 : Vec F S1x512x128 .bf16) (x1 : Vec F S1x2048x128 .bf16) (x2 x3 x4 : Vec F S64x64 .bf16) (x5 x6 x7 : Vec F S64 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ owns (c : Thread nD τ) arg10 fullShare x7
        ∗ (∃ d, owns (c : Thread nD τ) arg11 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare x6 ∗ owns (c : Thread nD τ) arg10 fullShare x7
            ∗ owns (c : Thread nD τ) arg11 fullShare (out0_8 x0 x1 x2 x3 x4 x5 x6 x7)) -∗ K ⟨⟩))
      ⊢ wp frame (wpE (defs₀ (F := F)) Variants.none c none) E
          (cc0__attn_kernel i arg3 harg3 arg4 harg4 arg5 harg5 arg6 harg6 arg7 harg7 arg8 harg8 arg9 harg9 arg10 harg10 arg11 harg11) K := by
  simp only [cc0__attn_kernel_eq_skeleton]; unfold cc0__attn_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _)

/-- The proof data of the attention pipeline on core `c`: the arrays as the region finds them; after the body each
    input's buffer at its block and the output's at `out0_8` of the input blocks; nothing owed; the input array's two
    windows hold one half of it each, every other input window its own array whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q w := match w with
    | ⟨0, _⟩ => fullShare.left
    | ⟨1, _⟩ => fullShare.right
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) :
    (dat0 V c).after 8 t = out0_8 (iblk0 V c 0 t) (iblk0 V c 1 t) (iblk0 V c 2 t) (iblk0 V c 3 t) (iblk0 V c 4 t) (iblk0 V c 5 t) (iblk0 V c 6 t) (iblk0 V c 7 t) := by
  dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-- The shares the arrays are held at. -/
theorem share0_0 (c : Dev nD) : (dat0 V c).share 0 = fullShare.left := rfl
theorem share0_1 (c : Dev nD) : (dat0 V c).share 1 = fullShare.right := rfl
theorem share0_ge (c : Dev nD) (w : Fin cfg0.W) (hw : 2 ≤ w.val) : (dat0 V c).share w = fullShare := by
  match w, hw with
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Fr

end
-- ==== Proof.KFrame1.lean ====
/-
  The output projection's region: what one grid point does to its blocks.

  The grid has sixteen points; point t reads rows 512 t .. 512 t + 511 of the attention output (a [8192, 1024] matrix),
  the whole [1024, 1024] weight matrix and the 1024-vector, and writes rows 512 t .. 512 t + 511 of the result. The
  body loads the three input blocks whole, forms one value from them and stores it over the whole output block (it
  also loads the output block first and drops what it loaded). So after the body the output block is a function of
  the three input blocks alone, and the input blocks are as they were.
-/
import proofs.«144325_j47253230190881_2_alg».proof.Proof.Gen.Kernel.Launch
import proofs.«144325_j47253230190881_2_alg».proof.Proof.Gen.Kernel.Skeleton
import proofs.«144325_j47253230190881_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev r1_x : Rect S512x1024 := Rect.unit (s := S512x1024) ![0, 0] S512x1024.size inb_S512x1024_S512x1024_0_0
abbrev r1_w : Rect S1024x1024 := Rect.unit (s := S1024x1024) ![0, 0] S1024x1024.size inb_S1024x1024_S1024x1024_0_0
abbrev r1_b : Rect S1024 := Rect.unit (s := S1024) ![0] S1024.size inb_S1024_S1024_0

/-- The output block after the body, from the three input blocks: its one store, over the whole block. -/
def out1_3 (x0 : Vec F S512x1024 .bf16) (x1 : Vec F S1024x1024 .bf16) (x2 : Vec F S1024 .f32) : Vec F S512x1024 .f32 :=
  View.canon [⟨r1_x, k1_pay1 (View.ld x0 r1_x) (View.ld x1 r1_w) (View.ld x2 r1_b)⟩]

/-- The one store covers the block. -/
theorem cover1_3 (p0 : Vec F S512x1024 .f32) (y : S512x1024.Idx) :
    ∃ pc ∈ ([⟨r1_x, p0⟩] : List (View.Piece (Elt F) S512x1024 .f32)), y ∈ pc.1.set :=
  View.cover_of_tiled [⟨r1_x, p0⟩] S512x1024.size (by rfl) y

set_option maxHeartbeats 1000000 in
/-- The body on whole staging memrefs: the inputs' contents are kept, the output's becomes `out1_3` of them. -/
theorem sound_kernel1 (c : Dev nD) (E : Set ℕ) (i : grid1.Coords)
    (arg1 : Memref sig .tc .vmem S512x1024 .bf16) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S512x1024 .f32) (harg4 : arg4.IsWhole)
    (x0 : Vec F S512x1024 .bf16) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__proj_kernel i arg1 harg1 arg2 harg2 arg3 harg3 arg4 harg4) K := by
  simp only [cc1__proj_kernel_eq_skeleton]; unfold cc1__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the projection's pipeline on core `c`: the arrays as the region finds them; after the body
    each input's buffer at its block and the output's at `out1_3` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Fr

end
-- ==== Proof.KShared0.lean ====
/-
  Two windows on one array.

  The attention region reads the input array through two windows (the query tile and the key / value band). The
  pipeline holds each window's array at that window's share, so at the region's entry the one buffer, held whole, is
  split into two halves, one per window, and at the exit the two halves, which still hold the same contents, are
  joined again. Every other window has an array of its own, held at the full share.
-/
import proofs.«144325_j47253230190881_2_alg».proof.Proof.Gen.Kernel.Launch
import proofs.«144325_j47253230190881_2_alg».proof.Proof.Gen.Kernel.Skeleton
import proofs.«144325_j47253230190881_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000
section Shared
variable {c : Dev nD} (dat : Dat τ (Elt F) Unit ℕ (UR sig nD τ) ℕ cfg0 c)
  (hs0 : dat.share 0 = fullShare.left) (hs1 : dat.share 1 = fullShare.right)
  (hs : ∀ w : Fin cfg0.W, 2 ≤ w.val → dat.share w = fullShare)

/-- The arrays behind the nine windows are eight distinct buffers. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v0) ↦{fullShare} V main_v0) ∗ (((c : Thread nD τ).loc main_v7) ↦{fullShare} V main_v7) ∗ (((c : Thread nD τ).loc main_v8) ↦{fullShare} V main_v8) ∗ (((c : Thread nD τ).loc main_v9) ↦{fullShare} V main_v9) ∗ (((c : Thread nD τ).loc main_v4) ↦{fullShare} V main_v4) ∗ (((c : Thread nD τ).loc main_v5) ↦{fullShare} V main_v5) ∗ (((c : Thread nD τ).loc main_v6) ↦{fullShare} V main_v6) ∗ (((c : Thread nD τ).loc main_v10) ↦{fullShare} V main_v10)) := by
  unfold Pipeline.arrBufs
  exact bigSep_eq_bigSepL_of_eq [main_v0, main_v7, main_v8, main_v9, main_v4, main_v5, main_v6, main_v10] (by decide) (by decide) _

omit hs0 hs1 hs in
/-- The windows' arrays, each a whole buffer, at contents read off a valuation. -/
theorem arrays0_eq (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    dat.arrays G = bigSep Finset.univ fun w : Fin 9 =>
      ((((c : Thread nD τ).loc (Pipeline.arrRef spec0 w)) ↦{dat.share w} V (Pipeline.arrRef spec0 w)) : sProp 𝕄) := by
  unfold Dat.arrays
  exact bigSep_congr fun w _ => by rw [(arr_whole0 w).set_eq_univ, hG w]

include hs0 hs1 hs in
/-- ENTRY: the eight buffers, each whole at the full share at contents `V`, are the nine windows' arrays at the windows'
    shares, the input array's two windows taking one half each. -/
theorem arrays_of_arrBufs0 (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    (Pipeline.arrBufs (Ix := Unit) (Name := ℕ) (U := UR sig nD τ) (Lvl := ℕ) spec0 c V : sProp 𝕄) ⊢ dat.arrays G := by
  rw [arrBufs0_eq, arrays0_eq dat _ G hG, bigSep_W0]
  rw [hs0, hs1, hs 2 (by decide), hs 3 (by decide), hs 4 (by decide), hs 5 (by decide), hs 6 (by decide), hs 7 (by decide), hs 8 (by decide)]
  iintro ⟨H0, H7, H8, H9, H4, H5, H6, H10⟩
  ihave H0' := (pointsTo_share (PosShare.mem_left_op_right fullShare)).1 $$ H0
  icases H0' with ⟨H0l, H0r⟩
  isplitl [H0l]; · iexact H0l
  isplitl [H0r]; · iexact H0r
  isplitl [H7]; · iexact H7
  isplitl [H8]; · iexact H8
  isplitl [H9]; · iexact H9
  isplitl [H4]; · iexact H4
  isplitl [H5]; · iexact H5
  isplitl [H6]; · iexact H6
  iexact H10

include hs0 hs1 hs in
/-- EXIT: the nine windows' arrays at contents that agree with a valuation `V'` — the two windows of the input array
    at the same contents — are the eight buffers whole at `V'`. -/
theorem arrBufs_of_arrays0 (V' : (b : Ref sig .tc) → Buf (Elt F) ((c : Thread nD τ).loc b))
    (G : (w : Fin cfg0.W) → Buf (Elt F) ((cfg0.win w).arr.view.loc (c : Thread nD τ)))
    (hG : ∀ w, G w = V' (Pipeline.arrRef spec0 w)) :
    dat.arrays G ⊢ (Pipeline.arrBufs (Ix := Unit) (Name := ℕ) (U := UR sig nD τ) (Lvl := ℕ) spec0 c V' : sProp 𝕄) := by
  rw [arrBufs0_eq, arrays0_eq dat _ G hG, bigSep_W0]
  rw [hs0, hs1, hs 2 (by decide), hs 3 (by decide), hs 4 (by decide), hs 5 (by decide), hs 6 (by decide), hs 7 (by decide), hs 8 (by decide)]
  iintro ⟨H0l, H0r, H7, H8, H9, H4, H5, H6, H10⟩
  isplitl [H0l H0r]
  · iapply (pointsTo_share (PosShare.mem_left_op_right fullShare)).2
    isplitl [H0l]; · iexact H0l
    iexact H0r
  isplitl [H7]; · iexact H7
  isplitl [H8]; · iexact H8
  isplitl [H9]; · iexact H9
  isplitl [H4]; · iexact H4
  isplitl [H5]; · iexact H5
  isplitl [H6]; · iexact H6
  iexact H10

end Shared

end Cert.Kernel.Fr

end
-- ==== Proof.KRun.lean ====
/-
  The whole program's run: host operations, the attention region, host operations, the projection region, host
  operations, from the launch to the return.

  Between two items core c holds every unscoped buffer at a known valuation: the launch memory; then each stretch of
  host operations applied to it; after a region, the same valuation with the region's output array replaced by what
  the pipeline's write-backs leave there. The run ends with every unscoped buffer of every core at the last of these
  valuations — the arguments among them, which no item writes, and the result.
-/
import proofs.«144325_j47253230190881_2_alg».proof.Proof.KFrame0
import proofs.«144325_j47253230190881_2_alg».proof.Proof.KFrame1
import proofs.«144325_j47253230190881_2_alg».proof.Proof.KShared0

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev W0 : Dev nD → Valuation τ sig (Elt F) := fun c b => m (c, b)
/-- After the first host stretch (the attention region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- What the attention region leaves in its output array. -/
def o2 (c : Dev nD) : Buf (Elt F) ((c : Thread nD τ).loc main_v10) := (dat0 (V1 m) c).arrAt 8 cfg0.N
/-- At the attention region's exit: its output array at what the write-backs leave, every other buffer as entered. -/
def W2 (c : Dev nD) : Valuation τ sig (Elt F) := Function.update (W1 m c) (Proc.devRef .tc main_v10) (o2 m c)
abbrev V2 : (c : Dev nD) → (b : Ref sig .tc) → Buf (Elt F) ((c : Thread nD τ).loc b) := fun c b => W2 m c b
/-- After the second host stretch (the projection region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- What the projection region leaves in its output array. -/
def o4 (c : Dev nD) : Buf (Elt F) ((c : Thread nD τ).loc main_v13) := (dat1 (V3 m) c).arrAt 3 cfg1.N
/-- At the projection region's exit. -/
def W4 (c : Dev nD) : Valuation τ sig (Elt F) := Function.update (W3 m c) (Proc.devRef .tc main_v13) (o4 m c)
abbrev V4 : (c : Dev nD) → (b : Ref sig .tc) → Buf (Elt F) ((c : Thread nD τ).loc b) := fun c b => W4 m c b
/-- After the last host stretch: the program's end. -/
abbrev W5 : Dev nD → Valuation τ sig (Elt F) := fun c => StableHlo.after hostOps2 (W4 m c)

theorem W2_out (c : Dev nD) : W2 m c (Proc.devRef .tc main_v10) = o2 m c := by
  unfold W2; exact Function.update_self _ _ _
theorem W2_of_ne (c : Dev nD) (b : Ref sig .tc) (hb : b ≠ main_v10) : W2 m c (Proc.devRef .tc b) = W1 m c (Proc.devRef .tc b) := by
  unfold W2; exact Function.update_of_ne (StableHlo.devRef_ne_of_ne hb) _ _
theorem W4_out (c : Dev nD) : W4 m c (Proc.devRef .tc main_v13) = o4 m c := by
  unfold W4; exact Function.update_self _ _ _
theorem W4_of_ne (c : Dev nD) (b : Ref sig .tc) (hb : b ≠ main_v13) : W4 m c (Proc.devRef .tc b) = W3 m c (Proc.devRef .tc b) := by
  unfold W4; exact Function.update_of_ne (StableHlo.devRef_ne_of_ne hb) _ _

/-- At the attention region's exit each of its arrays holds what the pipeline leaves: the inputs what they held at
    entry, the output the write-backs. -/
theorem hF0 (c : Dev nD) (w : Fin cfg0.W) : (dat0 (V1 m) c).arrAt w cfg0.N = V2 m c (Pipeline.arrRef spec0 w) := by
  match w with
  | ⟨0, _⟩ => exact (((dat0 (V1 m) c).arrAt_in 0 rfl _).trans (A_eq0 (V1 m) c 0)).trans (W2_of_ne m c main_v0 (by decide)).symm
  | ⟨1, _⟩ => exact (((dat0 (V1 m) c).arrAt_in 1 rfl _).trans (A_eq0 (V1 m) c 1)).trans (W2_of_ne m c main_v0 (by decide)).symm
  | ⟨2, _⟩ => exact (((dat0 (V1 m) c).arrAt_in 2 rfl _).trans (A_eq0 (V1 m) c 2)).trans (W2_of_ne m c main_v7 (by decide)).symm
  | ⟨3, _⟩ => exact (((dat0 (V1 m) c).arrAt_in 3 rfl _).trans (A_eq0 (V1 m) c 3)).trans (W2_of_ne m c main_v8 (by decide)).symm
  | ⟨4, _⟩ => exact (((dat0 (V1 m) c).arrAt_in 4 rfl _).trans (A_eq0 (V1 m) c 4)).trans (W2_of_ne m c main_v9 (by decide)).symm
  | ⟨5, _⟩ => exact (((dat0 (V1 m) c).arrAt_in 5 rfl _).trans (A_eq0 (V1 m) c 5)).trans (W2_of_ne m c main_v4 (by decide)).symm
  | ⟨6, _⟩ => exact (((dat0 (V1 m) c).arrAt_in 6 rfl _).trans (A_eq0 (V1 m) c 6)).trans (W2_of_ne m c main_v5 (by decide)).symm
  | ⟨7, _⟩ => exact (((dat0 (V1 m) c).arrAt_in 7 rfl _).trans (A_eq0 (V1 m) c 7)).trans (W2_of_ne m c main_v6 (by decide)).symm
  | ⟨8, _⟩ => exact (W2_out m c).symm
theorem hrest0 (c : Dev nD) : ∀ b, b ∉ Finset.univ.image (Pipeline.arrRef spec0) → V2 m c b = V1 m c b :=
  fun b hb => W2_of_ne m c b fun e => hb (e ▸ Finset.mem_image.mpr ⟨8, Finset.mem_univ _, rfl⟩)

theorem hF1 (c : Dev nD) (w : Fin cfg1.W) : (dat1 (V3 m) c).arrAt w cfg1.N = V4 m c (Pipeline.arrRef spec1 w) := by
  match w with
  | ⟨0, _⟩ => exact (((dat1 (V3 m) c).arrAt_in 0 rfl _).trans (A_eq1 (V3 m) c 0)).trans (W4_of_ne m c main_v12 (by decide)).symm
  | ⟨1, _⟩ => exact (((dat1 (V3 m) c).arrAt_in 1 rfl _).trans (A_eq1 (V3 m) c 1)).trans (W4_of_ne m c main_v11 (by decide)).symm
  | ⟨2, _⟩ => exact (((dat1 (V3 m) c).arrAt_in 2 rfl _).trans (A_eq1 (V3 m) c 2)).trans (W4_of_ne m c main_arg4 (by decide)).symm
  | ⟨3, _⟩ => exact (W4_out m c).symm
theorem hrest1 (c : Dev nD) : ∀ b, b ∉ Finset.univ.image (Pipeline.arrRef spec1) → V4 m c b = V3 m c b :=
  fun b hb => W4_of_ne m c b fun e => hb (e ▸ Finset.mem_image.mpr ⟨3, Finset.mem_univ _, rfl⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
/-- The last thread state: every unscoped buffer at the last valuation. -/
abbrev Tₙ (c : Dev nD) : sProp 𝕄 := StableHlo.held (c : Thread nD τ) (Pipeline.ucRefs τ sig) (W5 m c)

/-! ## The regions as items -/

set_option backward.isDefEq.respectTransparency.types false in
/-- The attention region: entered from every unscoped buffer at `W1`, left at `W2`. Its arrays are split out of the
    unscoped buffers — the input array in two halves — and put back at the exit contents. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (unscopedBufs c (V1 m c) : sProp 𝕄) ⊢ iprop((pdats m 0 c).arrays ((pdats m 0 c).arrAt · 0)
        ∗ Pipeline.unscopedRest spec0 c (V1 m c)) := by
      rw [Pipeline.unscopedBufs_split₀ cfgs 0 winFacts₀0.arr_unscoped c (V1 m c)]
      exact sep_mono (arrays_of_arrBufs0 (dat0 (V1 m) c) (share0_0 _ c) (share0_1 _ c) (share0_ge _ c) (V1 m c) _ fun _ => rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (V1 m c))
        ⊢ (unscopedBufs c (V2 m c) : sProp 𝕄) := by
      rw [Pipeline.unscopedBufs_split₀ cfgs 0 winFacts₀0.arr_unscoped c (V2 m c)]
      refine sep_mono (arrBufs_of_arrays0 (dat0 (V1 m) c) (share0_0 _ c) (share0_1 _ c) (share0_ge _ c) (V2 m c) _ (hF0 m c)) (Entails.of_eq ?_)
      unfold Pipeline.unscopedRest
      exact bigSep_congr fun b hb => by rw [hrest0 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The projection region: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as items, and the launch -/

abbrev segs : List (Pipeline.Seg (pcfgs (F := F)) adm (pdats m) () defs₀ 𝒱₀ L lv) :=
  [ .host (hseg hostOps0 hostOps0_sub hostOps0_fresh' (W0 m)),
    .region (reg0 m),
    .host (hseg hostOps1 hostOps1_sub hostOps1_fresh' (W2 m)),
    .region (reg1 m),
    .host (hseg hostOps2 hostOps2_sub hostOps2_fresh' (W4 m)) ]
theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of the program on the TensorCores
    terminates, nothing faulting, and every final state has every unscoped buffer of every core at `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => sep_mono .rfl
      (show R c ⊢ (iprop(∃ W, owes (c : Thread nD τ) (0 : CellTallies nD τ sig Unit) W) : sProp 𝕄) from by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      show iprop(StableHlo.held (c : Thread nD τ) (Pipeline.ucRefs τ sig) (W5 m c) ∗ SI s') ⊢ _
      unfold StableHlo.held
      iintro ⟨Hh, HSI⟩
      imodintro
      iapply (pointsTo_read_all (Pipeline.ucRefs τ sig) (fun b => (((c : Thread nD τ)).1, b)) (W5 m c) s')
      isplitl [Hh] <;> iassumption)
    (hQ := fun s h c => h c)

end Cert.Kernel.Fr

end
-- ==== Proof.KArgs.lean ====
/-
  No item of the program writes an argument: read back through the items, the last valuation holds each argument's
  buffer as launched.
-/
import proofs.«144325_j47253230190881_2_alg».proof.Proof.KRun
import Idealize.ShloMosaic.Lib.StableHlo.Run

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W5_arg0 (c : Dev nD) : W5 m c (Proc.devRef .tc main_arg0) = m ((c : Thread nD τ).loc main_arg0) := by
  show StableHlo.after hostOps2 (W4 m c) (Proc.devRef .tc main_arg0) = _
  after_results
  rw [W4_of_ne m c main_arg0 (by decide)]
  show StableHlo.after hostOps1 (W2 m c) (Proc.devRef .tc main_arg0) = _
  after_results
  rw [W2_of_ne m c main_arg0 (by decide)]
  show StableHlo.after hostOps0 (fun b => m (c, b)) (Proc.devRef .tc main_arg0) = _
  after_results
theorem W5_arg1 (c : Dev nD) : W5 m c (Proc.devRef .tc main_arg1) = m ((c : Thread nD τ).loc main_arg1) := by
  show StableHlo.after hostOps2 (W4 m c) (Proc.devRef .tc main_arg1) = _
  after_results
  rw [W4_of_ne m c main_arg1 (by decide)]
  show StableHlo.after hostOps1 (W2 m c) (Proc.devRef .tc main_arg1) = _
  after_results
  rw [W2_of_ne m c main_arg1 (by decide)]
  show StableHlo.after hostOps0 (fun b => m (c, b)) (Proc.devRef .tc main_arg1) = _
  after_results
theorem W5_arg2 (c : Dev nD) : W5 m c (Proc.devRef .tc main_arg2) = m ((c : Thread nD τ).loc main_arg2) := by
  show StableHlo.after hostOps2 (W4 m c) (Proc.devRef .tc main_arg2) = _
  after_results
  rw [W4_of_ne m c main_arg2 (by decide)]
  show StableHlo.after hostOps1 (W2 m c) (Proc.devRef .tc main_arg2) = _
  after_results
  rw [W2_of_ne m c main_arg2 (by decide)]
  show StableHlo.after hostOps0 (fun b => m (c, b)) (Proc.devRef .tc main_arg2) = _
  after_results
theorem W5_arg3 (c : Dev nD) : W5 m c (Proc.devRef .tc main_arg3) = m ((c : Thread nD τ).loc main_arg3) := by
  show StableHlo.after hostOps2 (W4 m c) (Proc.devRef .tc main_arg3) = _
  after_results
  rw [W4_of_ne m c main_arg3 (by decide)]
  show StableHlo.after hostOps1 (W2 m c) (Proc.devRef .tc main_arg3) = _
  after_results
  rw [W2_of_ne m c main_arg3 (by decide)]
  show StableHlo.after hostOps0 (fun b => m (c, b)) (Proc.devRef .tc main_arg3) = _
  after_results
theorem W5_arg4 (c : Dev nD) : W5 m c (Proc.devRef .tc main_arg4) = m ((c : Thread nD τ).loc main_arg4) := by
  show StableHlo.after hostOps2 (W4 m c) (Proc.devRef .tc main_arg4) = _
  after_results
  rw [W4_of_ne m c main_arg4 (by decide)]
  show StableHlo.after hostOps1 (W2 m c) (Proc.devRef .tc main_arg4) = _
  after_results
  rw [W2_of_ne m c main_arg4 (by decide)]
  show StableHlo.after hostOps0 (fun b => m (c, b)) (Proc.devRef .tc main_arg4) = _
  after_results

/-- The frame: every weakly fair execution terminates, nothing faulting, each argument's buffer as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c _ (mem_uc main_arg0 (by decide))).trans (W5_arg0 m c),
      (h c _ (mem_uc main_arg1 (by decide))).trans (W5_arg1 m c),
      (h c _ (mem_uc main_arg2 (by decide))).trans (W5_arg2 m c),
      (h c _ (mem_uc main_arg3 (by decide))).trans (W5_arg3 m c),
      (h c _ (mem_uc main_arg4 (by decide))).trans (W5_arg4 m c)⟩)
    (run_all m ρ)

end Cert.Kernel.Fr

end
-- ==== Proof.Frame0.lean ====
/-
  The attention region: what one grid point does to its blocks.

  The grid has 4 x 8 x 4 points (batch, pair of heads, tile of 512 query rows). A point reads, from the one
  [4, 2048, 1024] input array, the [512, 128] tile of query rows and the [2048, 128] band of all key / value rows of its
  pair of heads (two windows on the same array), the three 64 x 64 weight matrices and the three 64-vectors, and writes the
  [512, 128] tile of the attention output. The body loads the input blocks (the two 64-column halves of each tile
  separately), forms one value and stores it over the whole output block (it also loads the output block first and
  drops what it loaded). So after the body the output block is a function of the eight input blocks alone, and the
  input blocks are as they were.
-/
import proofs.«144325_j47253230190881_2_alg».proof.Proof.Gen.KernelIdeal.Launch
import proofs.«144325_j47253230190881_2_alg».proof.Proof.Gen.KernelIdeal.Skeleton
import proofs.«144325_j47253230190881_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body loads and stores through: the whole weight and bias blocks, the left and right 64
    columns of the query tile and of the key / value band, the whole output tile. -/
abbrev r0_w : Rect S64x64 := Rect.unit (s := S64x64) ![0, 0] S64x64.size inb_S64x64_S64x64_0_0
abbrev r0_b : Rect S64 := Rect.unit (s := S64) ![0] S64.size inb_S64_S64_0
abbrev r0_ql : Rect S1x512x128 := Rect.unit (s := S1x512x128) ![0, 0, 0] S1x512x64.size inb_S1x512x128_S1x512x64_0_0_0
abbrev r0_qr : Rect S1x512x128 := Rect.unit (s := S1x512x128) ![0, 0, 64] S1x512x64.size inb_S1x512x128_S1x512x64_0_0_64
abbrev r0_kl : Rect S1x2048x128 := Rect.unit (s := S1x2048x128) ![0, 0, 0] S1x2048x64.size inb_S1x2048x128_S1x2048x64_0_0_0
abbrev r0_kr : Rect S1x2048x128 := Rect.unit (s := S1x2048x128) ![0, 0, 64] S1x2048x64.size inb_S1x2048x128_S1x2048x64_0_0_64
abbrev r0_o : Rect S1x512x128 := Rect.unit (s := S1x512x128) ![0, 0, 0] S1x512x128.size inb_S1x512x128_S1x512x128_0_0_0

/-- The output tile after the body, from the eight input blocks: its one store, over the whole tile. -/
def out0_8 (x0 : Vec F S1x512x128 .bf16) (x1 : Vec F S1x2048x128 .bf16) (x2 x3 x4 : Vec F S64x64 .bf16) (x5 x6 x7 : Vec F S64 .f32) :
    Vec F S1x512x128 .bf16 :=
  View.canon [⟨r0_o, k0_pay1 (k0_pay12 (k0_pay2 (View.ld x2 r0_w)) (k0_pay3 (View.ld x3 r0_w)) (k0_pay4 (View.ld x4 r0_w)) (k0_pay5 (View.ld x5 r0_b)) (k0_pay6 (View.ld x6 r0_b)) (k0_pay7 (View.ld x7 r0_b))
      (k0_pay9 (View.ld x4 r0_w) (View.ld x7 r0_b) (View.ld x1 r0_kl))
      (k0_pay10 (View.ld x2 r0_w) (View.ld x3 r0_w) (View.ld x5 r0_b) (View.ld x6 r0_b) (View.ld x0 r0_ql) (View.ld x1 r0_kl))
      (k0_pay11 (View.ld x2 r0_w) (View.ld x3 r0_w) (View.ld x5 r0_b) (View.ld x6 r0_b) (View.ld x0 r0_ql) (View.ld x1 r0_kl))
      (View.ld x0 r0_qr) (View.ld x1 r0_kr))⟩]

/-- The one store covers the tile. -/
theorem cover0_8 (p0 : Vec F S1x512x128 .bf16) (y : S1x512x128.Idx) :
    ∃ pc ∈ ([⟨r0_o, p0⟩] : List (View.Piece (Elt F) S1x512x128 .bf16)), y ∈ pc.1.set :=
  View.cover_of_tiled [⟨r0_o, p0⟩] S1x512x128.size (by rfl) y

set_option maxHeartbeats 4000000 in
/-- The body on whole staging memrefs: the inputs' contents are kept, the output's becomes `out0_8` of them. -/
theorem sound_kernel0 (c : Dev nD) (E : Set ℕ) (i : grid0.Coords)
    (arg3 : Memref sig .tc .vmem S1x512x128 .bf16) (harg3 : arg3.IsWhole) (arg4 : Memref sig .tc .vmem S1x2048x128 .bf16) (harg4 : arg4.IsWhole)
    (arg5 : Memref sig .tc .vmem S64x64 .bf16) (harg5 : arg5.IsWhole) (arg6 : Memref sig .tc .vmem S64x64 .bf16) (harg6 : arg6.IsWhole)
    (arg7 : Memref sig .tc .vmem S64x64 .bf16) (harg7 : arg7.IsWhole) (arg8 : Memref sig .tc .vmem S64 .f32) (harg8 : arg8.IsWhole)
    (arg9 : Memref sig .tc .vmem S64 .f32) (harg9 : arg9.IsWhole) (arg10 : Memref sig .tc .vmem S64 .f32) (harg10 : arg10.IsWhole)
    (arg11 : Memref sig .tc .vmem S1x512x128 .bf16) (harg11 : arg11.IsWhole)
    (x0 : Vec F S1x512x128 .bf16) (x1 : Vec F S1x2048x128 .bf16) (x2 x3 x4 : Vec F S64x64 .bf16) (x5 x6 x7 : Vec F S64 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ owns (c : Thread nD τ) arg10 fullShare x7
        ∗ (∃ d, owns (c : Thread nD τ) arg11 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare x6 ∗ owns (c : Thread nD τ) arg10 fullShare x7
            ∗ owns (c : Thread nD τ) arg11 fullShare (out0_8 x0 x1 x2 x3 x4 x5 x6 x7)) -∗ K ⟨⟩))
      ⊢ wp frame (wpE (defs₀ (F := F)) Variants.none c none) E
          (cc0__attn_kernel i arg3 harg3 arg4 harg4 arg5 harg5 arg6 harg6 arg7 harg7 arg8 harg8 arg9 harg9 arg10 harg10 arg11 harg11) K := by
  simp only [cc0__attn_kernel_eq_skeleton]; unfold cc0__attn_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _)

/-- The proof data of the attention pipeline on core `c`: the arrays as the region finds them; after the body each
    input's buffer at its block and the output's at `out0_8` of the input blocks; nothing owed; the input array's two
    windows hold one half of it each, every other input window its own array whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q w := match w with
    | ⟨0, _⟩ => fullShare.left
    | ⟨1, _⟩ => fullShare.right
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) :
    (dat0 V c).after 8 t = out0_8 (iblk0 V c 0 t) (iblk0 V c 1 t) (iblk0 V c 2 t) (iblk0 V c 3 t) (iblk0 V c 4 t) (iblk0 V c 5 t) (iblk0 V c 6 t) (iblk0 V c 7 t) := by
  dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-- The shares the arrays are held at. -/
theorem share0_0 (c : Dev nD) : (dat0 V c).share 0 = fullShare.left := rfl
theorem share0_1 (c : Dev nD) : (dat0 V c).share 1 = fullShare.right := rfl
theorem share0_ge (c : Dev nD) (w : Fin cfg0.W) (hw : 2 ≤ w.val) : (dat0 V c).share w = fullShare := by
  match w, hw with
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Fr

end
-- ==== Proof.Frame1.lean ====
/-
  The output projection's region: what one grid point does to its blocks.

  The grid has sixteen points; point t reads rows 512 t .. 512 t + 511 of the attention output (a [8192, 1024] matrix),
  the whole [1024, 1024] weight matrix and the 1024-vector, and writes rows 512 t .. 512 t + 511 of the result. The
  body loads the three input blocks whole, forms one value from them and stores it over the whole output block (it
  also loads the output block first and drops what it loaded). So after the body the output block is a function of
  the three input blocks alone, and the input blocks are as they were.
-/
import proofs.«144325_j47253230190881_2_alg».proof.Proof.Gen.KernelIdeal.Launch
import proofs.«144325_j47253230190881_2_alg».proof.Proof.Gen.KernelIdeal.Skeleton
import proofs.«144325_j47253230190881_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev r1_x : Rect S512x1024 := Rect.unit (s := S512x1024) ![0, 0] S512x1024.size inb_S512x1024_S512x1024_0_0
abbrev r1_w : Rect S1024x1024 := Rect.unit (s := S1024x1024) ![0, 0] S1024x1024.size inb_S1024x1024_S1024x1024_0_0
abbrev r1_b : Rect S1024 := Rect.unit (s := S1024) ![0] S1024.size inb_S1024_S1024_0

/-- The output block after the body, from the three input blocks: its one store, over the whole block. -/
def out1_3 (x0 : Vec F S512x1024 .bf16) (x1 : Vec F S1024x1024 .bf16) (x2 : Vec F S1024 .f32) : Vec F S512x1024 .f32 :=
  View.canon [⟨r1_x, k1_pay1 (View.ld x0 r1_x) (View.ld x1 r1_w) (View.ld x2 r1_b)⟩]

/-- The one store covers the block. -/
theorem cover1_3 (p0 : Vec F S512x1024 .f32) (y : S512x1024.Idx) :
    ∃ pc ∈ ([⟨r1_x, p0⟩] : List (View.Piece (Elt F) S512x1024 .f32)), y ∈ pc.1.set :=
  View.cover_of_tiled [⟨r1_x, p0⟩] S512x1024.size (by rfl) y

set_option maxHeartbeats 1000000 in
/-- The body on whole staging memrefs: the inputs' contents are kept, the output's becomes `out1_3` of them. -/
theorem sound_kernel1 (c : Dev nD) (E : Set ℕ) (i : grid1.Coords)
    (arg1 : Memref sig .tc .vmem S512x1024 .bf16) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S512x1024 .f32) (harg4 : arg4.IsWhole)
    (x0 : Vec F S512x1024 .bf16) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__proj_kernel i arg1 harg1 arg2 harg2 arg3 harg3 arg4 harg4) K := by
  simp only [cc1__proj_kernel_eq_skeleton]; unfold cc1__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the projection's pipeline on core `c`: the arrays as the region finds them; after the body
    each input's buffer at its block and the output's at `out1_3` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Fr

end
-- ==== Proof.Shared0.lean ====
/-
  Two windows on one array.

  The attention region reads the input array through two windows (the query tile and the key / value band). The
  pipeline holds each window's array at that window's share, so at the region's entry the one buffer, held whole, is
  split into two halves, one per window, and at the exit the two halves, which still hold the same contents, are
  joined again. Every other window has an array of its own, held at the full share.
-/
import proofs.«144325_j47253230190881_2_alg».proof.Proof.Gen.KernelIdeal.Launch
import proofs.«144325_j47253230190881_2_alg».proof.Proof.Gen.KernelIdeal.Skeleton
import proofs.«144325_j47253230190881_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000
section Shared
variable {c : Dev nD} (dat : Dat τ (Elt F) Unit ℕ (UR sig nD τ) ℕ cfg0 c)
  (hs0 : dat.share 0 = fullShare.left) (hs1 : dat.share 1 = fullShare.right)
  (hs : ∀ w : Fin cfg0.W, 2 ≤ w.val → dat.share w = fullShare)

/-- The arrays behind the nine windows are eight distinct buffers. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v0) ↦{fullShare} V main_v0) ∗ (((c : Thread nD τ).loc main_v7) ↦{fullShare} V main_v7) ∗ (((c : Thread nD τ).loc main_v8) ↦{fullShare} V main_v8) ∗ (((c : Thread nD τ).loc main_v9) ↦{fullShare} V main_v9) ∗ (((c : Thread nD τ).loc main_v4) ↦{fullShare} V main_v4) ∗ (((c : Thread nD τ).loc main_v5) ↦{fullShare} V main_v5) ∗ (((c : Thread nD τ).loc main_v6) ↦{fullShare} V main_v6) ∗ (((c : Thread nD τ).loc main_v10) ↦{fullShare} V main_v10)) := by
  unfold Pipeline.arrBufs
  exact bigSep_eq_bigSepL_of_eq [main_v0, main_v7, main_v8, main_v9, main_v4, main_v5, main_v6, main_v10] (by decide) (by decide) _

omit hs0 hs1 hs in
/-- The windows' arrays, each a whole buffer, at contents read off a valuation. -/
theorem arrays0_eq (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    dat.arrays G = bigSep Finset.univ fun w : Fin 9 =>
      ((((c : Thread nD τ).loc (Pipeline.arrRef spec0 w)) ↦{dat.share w} V (Pipeline.arrRef spec0 w)) : sProp 𝕄) := by
  unfold Dat.arrays
  exact bigSep_congr fun w _ => by rw [(arr_whole0 w).set_eq_univ, hG w]

include hs0 hs1 hs in
/-- ENTRY: the eight buffers, each whole at the full share at contents `V`, are the nine windows' arrays at the windows'
    shares, the input array's two windows taking one half each. -/
theorem arrays_of_arrBufs0 (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    (Pipeline.arrBufs (Ix := Unit) (Name := ℕ) (U := UR sig nD τ) (Lvl := ℕ) spec0 c V : sProp 𝕄) ⊢ dat.arrays G := by
  rw [arrBufs0_eq, arrays0_eq dat _ G hG, bigSep_W0]
  rw [hs0, hs1, hs 2 (by decide), hs 3 (by decide), hs 4 (by decide), hs 5 (by decide), hs 6 (by decide), hs 7 (by decide), hs 8 (by decide)]
  iintro ⟨H0, H7, H8, H9, H4, H5, H6, H10⟩
  ihave H0' := (pointsTo_share (PosShare.mem_left_op_right fullShare)).1 $$ H0
  icases H0' with ⟨H0l, H0r⟩
  isplitl [H0l]; · iexact H0l
  isplitl [H0r]; · iexact H0r
  isplitl [H7]; · iexact H7
  isplitl [H8]; · iexact H8
  isplitl [H9]; · iexact H9
  isplitl [H4]; · iexact H4
  isplitl [H5]; · iexact H5
  isplitl [H6]; · iexact H6
  iexact H10

include hs0 hs1 hs in
/-- EXIT: the nine windows' arrays at contents that agree with a valuation `V'` — the two windows of the input array
    at the same contents — are the eight buffers whole at `V'`. -/
theorem arrBufs_of_arrays0 (V' : (b : Ref sig .tc) → Buf (Elt F) ((c : Thread nD τ).loc b))
    (G : (w : Fin cfg0.W) → Buf (Elt F) ((cfg0.win w).arr.view.loc (c : Thread nD τ)))
    (hG : ∀ w, G w = V' (Pipeline.arrRef spec0 w)) :
    dat.arrays G ⊢ (Pipeline.arrBufs (Ix := Unit) (Name := ℕ) (U := UR sig nD τ) (Lvl := ℕ) spec0 c V' : sProp 𝕄) := by
  rw [arrBufs0_eq, arrays0_eq dat _ G hG, bigSep_W0]
  rw [hs0, hs1, hs 2 (by decide), hs 3 (by decide), hs 4 (by decide), hs 5 (by decide), hs 6 (by decide), hs 7 (by decide), hs 8 (by decide)]
  iintro ⟨H0l, H0r, H7, H8, H9, H4, H5, H6, H10⟩
  isplitl [H0l H0r]
  · iapply (pointsTo_share (PosShare.mem_left_op_right fullShare)).2
    isplitl [H0l]; · iexact H0l
    iexact H0r
  isplitl [H7]; · iexact H7
  isplitl [H8]; · iexact H8
  isplitl [H9]; · iexact H9
  isplitl [H4]; · iexact H4
  isplitl [H5]; · iexact H5
  isplitl [H6]; · iexact H6
  iexact H10

end Shared

end Cert.KernelIdeal.Fr

end
-- ==== Proof.Run.lean ====
/-
  The whole program's run: host operations, the attention region, host operations, the projection region, host
  operations, from the launch to the return.

  Between two items core c holds every unscoped buffer at a known valuation: the launch memory; then each stretch of
  host operations applied to it; after a region, the same valuation with the region's output array replaced by what
  the pipeline's write-backs leave there. The run ends with every unscoped buffer of every core at the last of these
  valuations — the arguments among them, which no item writes, and the result.
-/
import proofs.«144325_j47253230190881_2_alg».proof.Proof.Frame0
import proofs.«144325_j47253230190881_2_alg».proof.Proof.Frame1
import proofs.«144325_j47253230190881_2_alg».proof.Proof.Shared0

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev W0 : Dev nD → Valuation τ sig (Elt F) := fun c b => m (c, b)
/-- After the first host stretch (the attention region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- What the attention region leaves in its output array. -/
def o2 (c : Dev nD) : Buf (Elt F) ((c : Thread nD τ).loc main_v10) := (dat0 (V1 m) c).arrAt 8 cfg0.N
/-- At the attention region's exit: its output array at what the write-backs leave, every other buffer as entered. -/
def W2 (c : Dev nD) : Valuation τ sig (Elt F) := Function.update (W1 m c) (Proc.devRef .tc main_v10) (o2 m c)
abbrev V2 : (c : Dev nD) → (b : Ref sig .tc) → Buf (Elt F) ((c : Thread nD τ).loc b) := fun c b => W2 m c b
/-- After the second host stretch (the projection region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- What the projection region leaves in its output array. -/
def o4 (c : Dev nD) : Buf (Elt F) ((c : Thread nD τ).loc main_v13) := (dat1 (V3 m) c).arrAt 3 cfg1.N
/-- At the projection region's exit. -/
def W4 (c : Dev nD) : Valuation τ sig (Elt F) := Function.update (W3 m c) (Proc.devRef .tc main_v13) (o4 m c)
abbrev V4 : (c : Dev nD) → (b : Ref sig .tc) → Buf (Elt F) ((c : Thread nD τ).loc b) := fun c b => W4 m c b
/-- After the last host stretch: the program's end. -/
abbrev W5 : Dev nD → Valuation τ sig (Elt F) := fun c => StableHlo.after hostOps2 (W4 m c)

theorem W2_out (c : Dev nD) : W2 m c (Proc.devRef .tc main_v10) = o2 m c := by
  unfold W2; exact Function.update_self _ _ _
theorem W2_of_ne (c : Dev nD) (b : Ref sig .tc) (hb : b ≠ main_v10) : W2 m c (Proc.devRef .tc b) = W1 m c (Proc.devRef .tc b) := by
  unfold W2; exact Function.update_of_ne (StableHlo.devRef_ne_of_ne hb) _ _
theorem W4_out (c : Dev nD) : W4 m c (Proc.devRef .tc main_v13) = o4 m c := by
  unfold W4; exact Function.update_self _ _ _
theorem W4_of_ne (c : Dev nD) (b : Ref sig .tc) (hb : b ≠ main_v13) : W4 m c (Proc.devRef .tc b) = W3 m c (Proc.devRef .tc b) := by
  unfold W4; exact Function.update_of_ne (StableHlo.devRef_ne_of_ne hb) _ _

/-- At the attention region's exit each of its arrays holds what the pipeline leaves: the inputs what they held at
    entry, the output the write-backs. -/
theorem hF0 (c : Dev nD) (w : Fin cfg0.W) : (dat0 (V1 m) c).arrAt w cfg0.N = V2 m c (Pipeline.arrRef spec0 w) := by
  match w with
  | ⟨0, _⟩ => exact (((dat0 (V1 m) c).arrAt_in 0 rfl _).trans (A_eq0 (V1 m) c 0)).trans (W2_of_ne m c main_v0 (by decide)).symm
  | ⟨1, _⟩ => exact (((dat0 (V1 m) c).arrAt_in 1 rfl _).trans (A_eq0 (V1 m) c 1)).trans (W2_of_ne m c main_v0 (by decide)).symm
  | ⟨2, _⟩ => exact (((dat0 (V1 m) c).arrAt_in 2 rfl _).trans (A_eq0 (V1 m) c 2)).trans (W2_of_ne m c main_v7 (by decide)).symm
  | ⟨3, _⟩ => exact (((dat0 (V1 m) c).arrAt_in 3 rfl _).trans (A_eq0 (V1 m) c 3)).trans (W2_of_ne m c main_v8 (by decide)).symm
  | ⟨4, _⟩ => exact (((dat0 (V1 m) c).arrAt_in 4 rfl _).trans (A_eq0 (V1 m) c 4)).trans (W2_of_ne m c main_v9 (by decide)).symm
  | ⟨5, _⟩ => exact (((dat0 (V1 m) c).arrAt_in 5 rfl _).trans (A_eq0 (V1 m) c 5)).trans (W2_of_ne m c main_v4 (by decide)).symm
  | ⟨6, _⟩ => exact (((dat0 (V1 m) c).arrAt_in 6 rfl _).trans (A_eq0 (V1 m) c 6)).trans (W2_of_ne m c main_v5 (by decide)).symm
  | ⟨7, _⟩ => exact (((dat0 (V1 m) c).arrAt_in 7 rfl _).trans (A_eq0 (V1 m) c 7)).trans (W2_of_ne m c main_v6 (by decide)).symm
  | ⟨8, _⟩ => exact (W2_out m c).symm
theorem hrest0 (c : Dev nD) : ∀ b, b ∉ Finset.univ.image (Pipeline.arrRef spec0) → V2 m c b = V1 m c b :=
  fun b hb => W2_of_ne m c b fun e => hb (e ▸ Finset.mem_image.mpr ⟨8, Finset.mem_univ _, rfl⟩)

theorem hF1 (c : Dev nD) (w : Fin cfg1.W) : (dat1 (V3 m) c).arrAt w cfg1.N = V4 m c (Pipeline.arrRef spec1 w) := by
  match w with
  | ⟨0, _⟩ => exact (((dat1 (V3 m) c).arrAt_in 0 rfl _).trans (A_eq1 (V3 m) c 0)).trans (W4_of_ne m c main_v12 (by decide)).symm
  | ⟨1, _⟩ => exact (((dat1 (V3 m) c).arrAt_in 1 rfl _).trans (A_eq1 (V3 m) c 1)).trans (W4_of_ne m c main_v11 (by decide)).symm
  | ⟨2, _⟩ => exact (((dat1 (V3 m) c).arrAt_in 2 rfl _).trans (A_eq1 (V3 m) c 2)).trans (W4_of_ne m c main_arg4 (by decide)).symm
  | ⟨3, _⟩ => exact (W4_out m c).symm
theorem hrest1 (c : Dev nD) : ∀ b, b ∉ Finset.univ.image (Pipeline.arrRef spec1) → V4 m c b = V3 m c b :=
  fun b hb => W4_of_ne m c b fun e => hb (e ▸ Finset.mem_image.mpr ⟨3, Finset.mem_univ _, rfl⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
/-- The last thread state: every unscoped buffer at the last valuation. -/
abbrev Tₙ (c : Dev nD) : sProp 𝕄 := StableHlo.held (c : Thread nD τ) (Pipeline.ucRefs τ sig) (W5 m c)

/-! ## The regions as items -/

set_option backward.isDefEq.respectTransparency.types false in
/-- The attention region: entered from every unscoped buffer at `W1`, left at `W2`. Its arrays are split out of the
    unscoped buffers — the input array in two halves — and put back at the exit contents. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (unscopedBufs c (V1 m c) : sProp 𝕄) ⊢ iprop((pdats m 0 c).arrays ((pdats m 0 c).arrAt · 0)
        ∗ Pipeline.unscopedRest spec0 c (V1 m c)) := by
      rw [Pipeline.unscopedBufs_split₀ cfgs 0 winFacts₀0.arr_unscoped c (V1 m c)]
      exact sep_mono (arrays_of_arrBufs0 (dat0 (V1 m) c) (share0_0 _ c) (share0_1 _ c) (share0_ge _ c) (V1 m c) _ fun _ => rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (V1 m c))
        ⊢ (unscopedBufs c (V2 m c) : sProp 𝕄) := by
      rw [Pipeline.unscopedBufs_split₀ cfgs 0 winFacts₀0.arr_unscoped c (V2 m c)]
      refine sep_mono (arrBufs_of_arrays0 (dat0 (V1 m) c) (share0_0 _ c) (share0_1 _ c) (share0_ge _ c) (V2 m c) _ (hF0 m c)) (Entails.of_eq ?_)
      unfold Pipeline.unscopedRest
      exact bigSep_congr fun b hb => by rw [hrest0 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The projection region: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as items, and the launch -/

abbrev segs : List (Pipeline.Seg (pcfgs (F := F)) adm (pdats m) () defs₀ 𝒱₀ L lv) :=
  [ .host (hseg hostOps0 hostOps0_sub hostOps0_fresh' (W0 m)),
    .region (reg0 m),
    .host (hseg hostOps1 hostOps1_sub hostOps1_fresh' (W2 m)),
    .region (reg1 m),
    .host (hseg hostOps2 hostOps2_sub hostOps2_fresh' (W4 m)) ]
theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of the program on the TensorCores
    terminates, nothing faulting, and every final state has every unscoped buffer of every core at `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => sep_mono .rfl
      (show R c ⊢ (iprop(∃ W, owes (c : Thread nD τ) (0 : CellTallies nD τ sig Unit) W) : sProp 𝕄) from by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      show iprop(StableHlo.held (c : Thread nD τ) (Pipeline.ucRefs τ sig) (W5 m c) ∗ SI s') ⊢ _
      unfold StableHlo.held
      iintro ⟨Hh, HSI⟩
      imodintro
      iapply (pointsTo_read_all (Pipeline.ucRefs τ sig) (fun b => (((c : Thread nD τ)).1, b)) (W5 m c) s')
      isplitl [Hh] <;> iassumption)
    (hQ := fun s h c => h c)

end Cert.KernelIdeal.Fr

end
-- ==== Proof.Args.lean ====
/-
  No item of the program writes an argument: read back through the items, the last valuation holds each argument's
  buffer as launched.
-/
import proofs.«144325_j47253230190881_2_alg».proof.Proof.Run
import Idealize.ShloMosaic.Lib.StableHlo.Run

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W5_arg0 (c : Dev nD) : W5 m c (Proc.devRef .tc main_arg0) = m ((c : Thread nD τ).loc main_arg0) := by
  show StableHlo.after hostOps2 (W4 m c) (Proc.devRef .tc main_arg0) = _
  after_results
  rw [W4_of_ne m c main_arg0 (by decide)]
  show StableHlo.after hostOps1 (W2 m c) (Proc.devRef .tc main_arg0) = _
  after_results
  rw [W2_of_ne m c main_arg0 (by decide)]
  show StableHlo.after hostOps0 (fun b => m (c, b)) (Proc.devRef .tc main_arg0) = _
  after_results
theorem W5_arg1 (c : Dev nD) : W5 m c (Proc.devRef .tc main_arg1) = m ((c : Thread nD τ).loc main_arg1) := by
  show StableHlo.after hostOps2 (W4 m c) (Proc.devRef .tc main_arg1) = _
  after_results
  rw [W4_of_ne m c main_arg1 (by decide)]
  show StableHlo.after hostOps1 (W2 m c) (Proc.devRef .tc main_arg1) = _
  after_results
  rw [W2_of_ne m c main_arg1 (by decide)]
  show StableHlo.after hostOps0 (fun b => m (c, b)) (Proc.devRef .tc main_arg1) = _
  after_results
theorem W5_arg2 (c : Dev nD) : W5 m c (Proc.devRef .tc main_arg2) = m ((c : Thread nD τ).loc main_arg2) := by
  show StableHlo.after hostOps2 (W4 m c) (Proc.devRef .tc main_arg2) = _
  after_results
  rw [W4_of_ne m c main_arg2 (by decide)]
  show StableHlo.after hostOps1 (W2 m c) (Proc.devRef .tc main_arg2) = _
  after_results
  rw [W2_of_ne m c main_arg2 (by decide)]
  show StableHlo.after hostOps0 (fun b => m (c, b)) (Proc.devRef .tc main_arg2) = _
  after_results
theorem W5_arg3 (c : Dev nD) : W5 m c (Proc.devRef .tc main_arg3) = m ((c : Thread nD τ).loc main_arg3) := by
  show StableHlo.after hostOps2 (W4 m c) (Proc.devRef .tc main_arg3) = _
  after_results
  rw [W4_of_ne m c main_arg3 (by decide)]
  show StableHlo.after hostOps1 (W2 m c) (Proc.devRef .tc main_arg3) = _
  after_results
  rw [W2_of_ne m c main_arg3 (by decide)]
  show StableHlo.after hostOps0 (fun b => m (c, b)) (Proc.devRef .tc main_arg3) = _
  after_results
theorem W5_arg4 (c : Dev nD) : W5 m c (Proc.devRef .tc main_arg4) = m ((c : Thread nD τ).loc main_arg4) := by
  show StableHlo.after hostOps2 (W4 m c) (Proc.devRef .tc main_arg4) = _
  after_results
  rw [W4_of_ne m c main_arg4 (by decide)]
  show StableHlo.after hostOps1 (W2 m c) (Proc.devRef .tc main_arg4) = _
  after_results
  rw [W2_of_ne m c main_arg4 (by decide)]
  show StableHlo.after hostOps0 (fun b => m (c, b)) (Proc.devRef .tc main_arg4) = _
  after_results

/-- The frame: every weakly fair execution terminates, nothing faulting, each argument's buffer as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c _ (mem_uc main_arg0 (by decide))).trans (W5_arg0 m c),
      (h c _ (mem_uc main_arg1 (by decide))).trans (W5_arg1 m c),
      (h c _ (mem_uc main_arg2 (by decide))).trans (W5_arg2 m c),
      (h c _ (mem_uc main_arg3 (by decide))).trans (W5_arg3 m c),
      (h c _ (mem_uc main_arg4 (by decide))).trans (W5_arg4 m c)⟩)
    (run_all m ρ)

end Cert.KernelIdeal.Fr

end
-- ==== Proof.Spec.lean ====
/-
  Multi-head self-attention with one projection shared by every head, followed by an output projection, as plain
  formulas over the extended reals.

  For a batch b, a position t and a head h (sixteen heads of sixty-four channels each, laid side by side in the 1024
  columns of x), the head's input row is the slice x[b, t, 64h .. 64h+63]. One 192x64 matrix W and a 192-vector c give,
  by its three 64-row bands, the query, key and value maps  r |-> (sum_d r_d * W[band + e, d]) + c[band + e].
  The score of position t against position j is  (sum_e q_t[e] * k_j[e]) * scale  with scale the word 0x3E000000
  (one eighth); the row of scores is turned into weights by subtracting its largest entry, exponentiating and
  dividing by the sum of the exponentials; the head's output is the weighted sum of the value rows. The heads' outputs
  are laid side by side again and multiplied by the transpose of a 1024x1024 matrix, a 1024-vector added.
-/
import Idealize.ShloMosaic.PureOps.Ideal
import Idealize.ShloMosaic.Lib.ValueIdx

noncomputable section

namespace Cert.Spec

open Idealize.ShloMosaic Idealize.ShloMosaic.ValueIdx

/-- One affine map of a 64-vector: entry `e` of `W r + c`. -/
def lin (r : Fin 64 → EReal) (W : Fin 64 → Fin 64 → EReal) (c : Fin 64 → EReal) (e : Fin 64) : EReal :=
  (∑ d : Fin 64, r d * W e d) + c e

/-- The scaled score of a query row against key row `j`. -/
def score (rq : Fin 64 → EReal) (rk : Fin 2048 → Fin 64 → EReal)
    (Wq : Fin 64 → Fin 64 → EReal) (cq : Fin 64 → EReal) (Wk : Fin 64 → Fin 64 → EReal) (ck : Fin 64 → EReal)
    (j : Fin 2048) : EReal :=
  (∑ e : Fin 64, lin rq Wq cq e * lin (rk j) Wk ck e) * Ideal.ofBits .f32 0x3E000000#32

/-- The largest score of the row, folded from minus infinity. -/
def top (s : Fin 2048 → EReal) : EReal :=
  (Finset.univ : Finset (Fin 2048)).fold max (Ideal.ofBits .f32 0xFF800000#32) s

/-- One head's output row at channel `e`: the scores shifted by their largest, exponentiated, normalised by their
    sum, and used as the weights of the value rows. -/
def head (rq : Fin 64 → EReal) (rk : Fin 2048 → Fin 64 → EReal)
    (Wq : Fin 64 → Fin 64 → EReal) (cq : Fin 64 → EReal) (Wk : Fin 64 → Fin 64 → EReal) (ck : Fin 64 → EReal)
    (Wv : Fin 64 → Fin 64 → EReal) (cv : Fin 64 → EReal) (e : Fin 64) : EReal :=
  ∑ j : Fin 2048,
    Ideal.div (Ideal.exp (score rq rk Wq cq Wk ck j - top (score rq rk Wq cq Wk ck)))
        (∑ j' : Fin 2048, Ideal.exp (score rq rk Wq cq Wk ck j' - top (score rq rk Wq cq Wk ck)))
      * lin (rk j) Wv cv e

/-- Row `64 * h + d` of the input's channel axis. -/
def chan (h : Fin 16) (d : Fin 64) : Fin 1024 := ⟨64 * h.val + d.val, by have := h.isLt; have := d.isLt; omega⟩

/-- Row `o + e` of the shared 192-row projection, for the band offset `o` = 0, 64 or 128. -/
def band (o : Nat) (ho : o + 64 ≤ 192) (e : Fin 64) : Fin 192 := ⟨o + e.val, by have := e.isLt; omega⟩

variable (x : (⟨3, ![4, 2048, 1024]⟩ : Shape).Idx → EReal) (W : (⟨2, ![192, 64]⟩ : Shape).Idx → EReal)
  (c : (⟨1, ![192]⟩ : Shape).Idx → EReal) (Wp : (⟨2, ![1024, 1024]⟩ : Shape).Idx → EReal)
  (cp : (⟨1, ![1024]⟩ : Shape).Idx → EReal)

/-- The attention output of batch `b`, position `t`, head `h`, channel `e`. -/
def attn (b : Fin 4) (t : Fin 2048) (h : Fin 16) (e : Fin 64) : EReal :=
  head (fun d => x (ix3 b t (chan h d))) (fun j d => x (ix3 b j (chan h d)))
    (fun e' d => W (ix2 (band 0 (by decide) e') d)) (fun e' => c (ix1 (band 0 (by decide) e')))
    (fun e' d => W (ix2 (band 64 (by decide) e') d)) (fun e' => c (ix1 (band 64 (by decide) e')))
    (fun e' d => W (ix2 (band 128 (by decide) e') d)) (fun e' => c (ix1 (band 128 (by decide) e'))) e

/-- The heads side by side: column `g` of the attention output belongs to head `g / 64`, channel `g % 64`. -/
def attnFlat (b : Fin 4) (t : Fin 2048) (g : Fin 1024) : EReal :=
  attn x W c b t ⟨g.val / 64, by have := g.isLt; omega⟩ ⟨g.val % 64, Nat.mod_lt _ (by decide)⟩

/-- The whole result at `(b, t, f)`: the attention output times the transposed output matrix, plus its vector. -/
def outAt (b : Fin 4) (t : Fin 2048) (f : Fin 1024) : EReal :=
  (∑ g : Fin 1024, attnFlat x W c b t g * Wp (ix2 f g)) + cp (ix1 f)

/-- The result as an array. -/
def out : (⟨3, ![4, 2048, 1024]⟩ : Shape).Idx → EReal :=
  fun i => outAt x W c Wp cp (i 0) (i 1) (i 2)

theorem out_apply (b : Fin 4) (t : Fin 2048) (f : Fin 1024) :
    out x W c Wp cp (ix3 b t f) = outAt x W c Wp cp b t f := rfl

end Cert.Spec

end
-- ==== Proof.Spec2.lean ====
/-
  The two regions' results as whole arrays.

  The attention region leaves, at (b, t, g), the output of head g / 64 at channel g % 64 for batch b and position t,
  computed from the input array and the three 64 x 64 weight matrices and 64-vectors it was handed; the projection
  region leaves, at row r and column f, the product of row r of its left matrix with row f of its right matrix, plus
  entry f of its vector.
-/
import proofs.«144325_j47253230190881_2_alg».proof.Proof.Spec

noncomputable section

namespace Cert.Spec

open Idealize.ShloMosaic Idealize.ShloMosaic.ValueIdx

/-- What the attention region leaves in its output array, from the arrays it reads. -/
def attnG (X : (⟨3, ![4, 2048, 1024]⟩ : Shape).Idx → EReal)
    (Wq Wk Wv : (⟨2, ![64, 64]⟩ : Shape).Idx → EReal) (cq ck cv : (⟨1, ![64]⟩ : Shape).Idx → EReal) :
    (⟨3, ![4, 2048, 1024]⟩ : Shape).Idx → EReal :=
  fun i => head (fun d => X (ix3 (i 0) (i 1) (chan ⟨(i 2).val / 64, by have h : (i 2).val < 1024 := (i 2).isLt; omega⟩ d)))
    (fun j d => X (ix3 (i 0) j (chan ⟨(i 2).val / 64, by have h : (i 2).val < 1024 := (i 2).isLt; omega⟩ d)))
    (fun e d => Wq (ix2 e d)) (fun e => cq (ix1 e)) (fun e d => Wk (ix2 e d)) (fun e => ck (ix1 e))
    (fun e d => Wv (ix2 e d)) (fun e => cv (ix1 e)) ⟨(i 2).val % 64, Nat.mod_lt _ (by decide)⟩

/-- What the projection region leaves in its output array, from the arrays it reads. -/
def projG (A : (⟨2, ![8192, 1024]⟩ : Shape).Idx → EReal) (Wp : (⟨2, ![1024, 1024]⟩ : Shape).Idx → EReal)
    (cp : (⟨1, ![1024]⟩ : Shape).Idx → EReal) : (⟨2, ![8192, 1024]⟩ : Shape).Idx → EReal :=
  fun i => (∑ g : Fin 1024, A (ix2 (i 0) g) * Wp (ix2 (i 1) g)) + cp (ix1 (i 1))

end Cert.Spec

end
-- ==== Proof.KernelValue.lean ====
/-
  The value the kernel's program computes, as one term of its five arguments.

  The host rounds the input and the weights to bf16 (the identity on extended reals), cuts the shared 192-row
  projection and its 192-vector into their three 64-row bands, hands these to the attention region, re-lays the
  region's [4, 2048, 1024] result as an [8192, 1024] matrix, hands that with the rounded output weights and the output
  vector to the projection region, and re-lays the [8192, 1024] result as [4, 2048, 1024].
-/
import proofs.«144325_j47253230190881_2_alg».proof.Proof.Gen.KernelIdeal
import proofs.«144325_j47253230190881_2_alg».proof.Proof.Spec2

noncomputable section

namespace Cert.KernelIdeal.KV

open Idealize.ShloMosaic Cert.KernelIdeal Cert.KernelIdeal.Gen

/-- The attention region's result from the program's arguments. -/
def attnValue (x : FVec Ideal S4x2048x1024 .f32) (W : FVec Ideal S192x64 .f32) (c : FVec Ideal S192 .f32) :
    FVec Ideal S4x2048x1024 .bf16 :=
  Cert.Spec.attnG (truncf (F := Ideal) .bf16 x bitsLt_bf16_f32)
    (truncf (F := Ideal) .bf16 (extractStridedSlice S64x64 ![0, 0] W slices_S192x64_S64x64_0_0) bitsLt_bf16_f32)
    (truncf (F := Ideal) .bf16 (extractStridedSlice S64x64 ![64, 0] W slices_S192x64_S64x64_64_0) bitsLt_bf16_f32)
    (truncf (F := Ideal) .bf16 (extractStridedSlice S64x64 ![128, 0] W slices_S192x64_S64x64_128_0) bitsLt_bf16_f32)
    (extractStridedSlice S64 ![0] c slices_S192_S64_0)
    (extractStridedSlice S64 ![64] c slices_S192_S64_64)
    (extractStridedSlice S64 ![128] c slices_S192_S64_128)

/-- The program's result from its arguments. -/
def value (x : FVec Ideal S4x2048x1024 .f32) (W : FVec Ideal S192x64 .f32) (c : FVec Ideal S192 .f32)
    (Wp : FVec Ideal S1024x1024 .f32) (cp : FVec Ideal S1024 .f32) : FVec Ideal S4x2048x1024 .f32 :=
  shapeCast S4x2048x1024
    (Cert.Spec.projG (shapeCast S8192x1024 (attnValue x W c) shapeCasts_S4x2048x1024_S8192x1024)
      (truncf (F := Ideal) .bf16 Wp bitsLt_bf16_f32) cp : FVec Ideal S8192x1024 .f32)
    shapeCasts_S8192x1024_S4x2048x1024

end Cert.KernelIdeal.KV

end
-- ==== Proof.LibMatmulNT.lean ====
/-
  A matrix product whose right operand is contracted on its last axis, read at an index, over the extended reals.

  For the dimension numbers of an M×K by N×K product (contract the left operand's axis 1 with the right operand's
  axis 1, no batch axes: the product of the left matrix with the transpose of the right one), the product accumulated
  into the zero matrix has, at row `p` and column `q`, the entry  Σ_{k < K} lhs(p, k) · rhs(q, k):  the left index
  keeps the row and takes the contraction coordinate as its column, the right index takes the output's column as
  its row and the contraction coordinate as its column. Generic in M, K, N and in the operands' formats.
-/
import Idealize.ShloMosaic.PureOps.Ideal.Laws
import Idealize.ShloMosaic.Lib.ValueIdx

noncomputable section

open scoped BigOperators

namespace Cert.LibMatmulNT

open Idealize.ShloMosaic Idealize.ShloMosaic.ValueIdx

variable {M K N : Nat}

/-- The left index keeps the output's row. -/
theorem nt_lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton_self _)]
  rfl

/-- The left index's column is the contraction coordinate. -/
theorem nt_lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- The right index's row is the output's column. -/
theorem nt_rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton_self _)]
  rfl

/-- The right index's column is the contraction coordinate. -/
theorem nt_rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- THE PRODUCT AT AN ENTRY: a matrix product contracting both operands' last axes, accumulated into the zero matrix,
    is at `(p, q)` the sum over the contracted axis of the operands' products. The dimension numbers are passed as any
    record equal to `DotDims.transposedRhs M K N` (a printed record with the same six lists is, by `rfl`). -/
theorem matmul_nt_zero_apply {φ₁ φ₂ : FTy} (D : DotDims ⟨2, ![M, K]⟩ ⟨2, ![N, K]⟩ ⟨2, ![M, N]⟩)
    (hD : D = DotDims.transposedRhs M K N) (prec : Option ContractPrecision)
    (lhs : FVec Ideal ⟨2, ![M, K]⟩ φ₁) (rhs : FVec Ideal ⟨2, ![N, K]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 q k) := by
  subst hD
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact nt_lhs_row _ _
      | ⟨1, _⟩ => exact (nt_lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact nt_rhs_row _ _
      | ⟨1, _⟩ => exact (nt_rhs_col _ _).trans hk)
  rw [el, er]

end Cert.LibMatmulNT

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibRows.lean ====
/-
  Layout operations and lane sums read at an index written by coordinates.

  * A three-axis array [a, b, c] taken as the matrix [a·b, c] whose row p·b + k is the array's row (p, k), and back.
  * A matrix [a, c] given a middle unit axis and repeated b times along it: entry (p, k, q) is the matrix's (p, q).
  * A matrix [a, b] given a trailing unit axis and repeated c times along it: entry (p, k, q) is the matrix's (p, k).
  * A vector [a] given a trailing unit axis, and a column [a, 1] repeated c times along it: entry (p, q) is the vector's p.
  * Over the extended reals, a sum over the middle axis of [a, b, c] at (p, q) is Σ_k of the array at (p, k, q), and a sum
    over the last axis of [a, c] at p is Σ_q of the matrix at (p, q); both from the zero accumulator.
  Every statement is generic in the extents; the row number of the flattened matrix is passed with its equation.
-/
import Idealize.ShloMosaic.Lib.Pipeline.Value
import Idealize.ShloMosaic.Lib.ValueIdx
import Idealize.ShloMosaic.PureOps.Ideal.Laws

noncomputable section

open scoped BigOperators

namespace Cert.LibRows

open Idealize.ShloMosaic Idealize.ShloMosaic.ValueIdx

variable {α : Type}

/-- [a, b, c] as the matrix [n, c], n = a·b: the matrix's row r = p·b + k is the array's row (p, k). -/
theorem flatten_rows_apply {a b c n : Nat} (x : (⟨3, ![a, b, c]⟩ : Shape).Idx → α)
    (h : (⟨3, ![a, b, c]⟩ : Shape).ShapeCasts ⟨2, ![n, c]⟩) (p : Fin a) (k : Fin b) (q : Fin c) (r : Fin n)
    (hr : r.val = p.val * b + k.val) :
    shapeCast ⟨2, ![n, c]⟩ x h (ix2 r q) = x (ix3 p k q) :=
  shapeCast_apply x h _ _ (by
    rw [Shape.rowMajor_val_three, Shape.rowMajor_val_two]
    show (p.val * b + k.val) * c + q.val = r.val * c + q.val
    rw [hr])

/-- The matrix [n, c], n = a·b, as [a, b, c]: entry (p, k, q) is the matrix's row r = p·b + k at column q. -/
theorem unflatten_rows_apply {a b c n : Nat} (x : (⟨2, ![n, c]⟩ : Shape).Idx → α)
    (h : (⟨2, ![n, c]⟩ : Shape).ShapeCasts ⟨3, ![a, b, c]⟩) (p : Fin a) (k : Fin b) (q : Fin c) (r : Fin n)
    (hr : r.val = p.val * b + k.val) :
    shapeCast ⟨3, ![a, b, c]⟩ x h (ix3 p k q) = x (ix2 r q) :=
  shapeCast_apply x h _ _ (by
    rw [Shape.rowMajor_val_two, Shape.rowMajor_val_three]
    show r.val * c + q.val = (p.val * b + k.val) * c + q.val
    rw [hr])

/-- [a, c] given a middle unit axis. -/
theorem insert_mid_apply {a c : Nat} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_two, Shape.rowMajor_val_three]
    show p.val * c + q.val = (p.val * 1 + u.val) * c + q.val
    rw [hu, Nat.mul_one, Nat.add_zero])

/-- [a, 1, c] repeated along its middle axis. -/
theorem bcast_mid_apply {a b c : Nat} (x : (⟨3, ![a, 1, c]⟩ : Shape).Idx → α)
    (h : (⟨3, ![a, 1, c]⟩ : Shape).Broadcasts ⟨3, ![a, b, c]⟩) (p : Fin a) (k : Fin b) (q : Fin c) :
    broadcastTo ⟨3, ![a, b, c]⟩ x h (ix3 p k q) = x (ix3 p (0 : Fin 1) q) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else k.val; rw [if_pos rfl]
    | ⟨2, _⟩ => by
        show q.val = if c = 1 then 0 else q.val
        have := q.isLt
        split_ifs <;> omega)

/-- [a, b] given a trailing unit axis. -/
theorem append_unit_apply {a b : Nat} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_two, Shape.rowMajor_val_three]
    show p.val * b + k.val = (p.val * b + k.val) * 1 + u.val
    rw [hu, Nat.mul_one, Nat.add_zero])

/-- [a, b, 1] repeated along its last axis. -/
theorem bcast_last_apply {a b c : Nat} (x : (⟨3, ![a, b, 1]⟩ : Shape).Idx → α)
    (h : (⟨3, ![a, b, 1]⟩ : Shape).Broadcasts ⟨3, ![a, b, c]⟩) (p : Fin a) (k : Fin b) (q : Fin c) :
    broadcastTo ⟨3, ![a, b, c]⟩ x h (ix3 p k q) = x (ix3 p k (0 : Fin 1)) :=
  broadcastTo_apply x h _ _ (fun ax => match ax with
    | ⟨0, _⟩ => by
        show p.val = if a = 1 then 0 else p.val
        have := p.isLt
        split_ifs <;> omega
    | ⟨1, _⟩ => by
        show k.val = if b = 1 then 0 else k.val
        have := k.isLt
        split_ifs <;> omega
    | ⟨2, _⟩ => by show 0 = if (1 : Nat) = 1 then 0 else q.val; rw [if_pos rfl])

/-- A vector [a] as the column [a, 1]. -/
theorem col_cast_apply {a : Nat} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column [a, 1] repeated along its unit axis. -/
theorem bcast_col_apply {a c : Nat} (x : (⟨2, ![a, 1]⟩ : Shape).Idx → α)
    (h : (⟨2, ![a, 1]⟩ : Shape).Broadcasts ⟨2, ![a, c]⟩) (p : Fin a) (q : Fin c) :
    broadcastTo ⟨2, ![a, c]⟩ x h (ix2 p q) = x (ix2 p (0 : Fin 1)) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else q.val; rw [if_pos rfl])

/-- The sum over the middle axis of [a, b, c], from the zero accumulator, at (p, q). -/
theorem lane_sum_mid_apply {a b c : Nat} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (p : Fin a) (q : Fin c) :
    multiReduction .add [1] ⟨2, ![a, c]⟩ src 0x00000000#32 h hφ hacc (ix2 p q) = ∑ k : Fin b, src (ix3 p k q) := by
  refine (Ideal.multiReduction_add_single src 0x00000000#32 h hφ hacc (ix2 p q)).trans ?_
  exact Finset.sum_congr rfl fun k _ => congrArg src (funext fun ax => Fin.ext (by
    match ax with
    | ⟨0, _⟩ => rfl
    | ⟨1, _⟩ => rfl
    | ⟨2, _⟩ => rfl))

/-- The sum over the last axis of [a, c], from the zero accumulator, at p. -/
theorem lane_sum_last_apply {a c : Nat} (src : FVec Ideal ⟨2, ![a, c]⟩ .f32)
    (h : (⟨2, ![a, c]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ q : Fin c, src (ix2 p q) := by
  refine (Ideal.multiReduction_add_single src 0x00000000#32 h hφ hacc (ix1 p)).trans ?_
  exact Finset.sum_congr rfl fun q _ => congrArg src (funext fun ax => Fin.ext (by
    match ax with
    | ⟨0, _⟩ => rfl
    | ⟨1, _⟩ => rfl))

end Cert.LibRows

end
-- ==== Proof.LibRowMax.lean ====
/-
  The largest entry of each row of a matrix, read at a row.

  A kernel takes the maximum over the last axis of an [a, c] matrix by a lane reduction from an accumulator word; the
  host takes it by a reduce whose body is the maximum, from an initial value held in a rank-0 array. Over the extended
  reals both are, at row p, the fold of `max` from the starting value over the c entries (p, q) of that row, in any
  order. Generic in a and c; the host form takes the witness that names the inserted coordinate as an argument.
-/
import Idealize.ShloMosaic.PureOps.Ideal.Laws
import Idealize.ShloMosaic.Lib.ValueIdx

noncomputable section

namespace Cert.LibRowMax

open Idealize.ShloMosaic Idealize.ShloMosaic.ValueIdx

/-- The index of row `p` with the column `q` put back is `(p, q)`. -/
theorem lift_last {a c : Nat} (h : (⟨2, ![a, c]⟩ : Shape).Reduces [1] ⟨1, ![a]⟩) (p : Fin a) (q : Fin c) :
    h.lift (ix1 p) q = ix2 p q :=
  funext fun ax => Fin.ext (by
    match ax with
    | ⟨0, _⟩ => rfl
    | ⟨1, _⟩ => rfl)

/-- A lane maximum over the last axis of [a, c], from the accumulator word `acc`, at row `p`. -/
theorem lane_max_last_apply {a c : Nat} (src : FVec Ideal ⟨2, ![a, c]⟩ .f32) (acc : BitVec 32)
    (h : (⟨2, ![a, c]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin c)).fold max (Ideal.ofBits .f32 acc) (fun q => src (ix2 p q)) := by
  refine (Ideal.multiReduction_maximumf_single src acc h hφ hacc (ix1 p)).trans ?_
  exact Finset.fold_congr fun q _ => congrArg src (lift_last h p q)

/-- The host's reduce with the maximum as its body over the last axis of [a, c], from the initial value `init`, at
    row `p`. -/
theorem host_max_last_apply {a c : Nat} {u : Shape} (x : FVec Ideal ⟨2, ![a, c]⟩ .f32) (init : FVec Ideal u .f32)
    (h' : (⟨2, ![a, c]⟩ : Shape).ReducesTo [1] ⟨1, ![a]⟩) (h : (⟨2, ![a, c]⟩ : Shape).Reduces [1] ⟨1, ![a]⟩)
    (hu : 0 < u.numel) (p : Fin a) :
    Host.reduce (FloatOps.maximumf (F := Ideal) (φ := .f32)) x init h' hu (ix1 p)
      = (Finset.univ : Finset (Fin c)).fold max (init (Shape.Idx.first hu)) (fun q => x (ix2 p q)) := by
  refine (Host.reduce_eq_fold_single (FloatOps.maximumf (F := Ideal) (φ := .f32)) x init h' h hu (ix1 p)).trans ?_
  exact Finset.fold_congr fun q _ => congrArg x (lift_last h p q)

end Cert.LibRowMax

end
-- ==== Proof.LibJoinCols.lean ====
/-
  Two matrices with the same rows set side by side, read at an entry.

  The concatenation along the columns of an [a, c₁] matrix and an [a, c₂] matrix is the [a, c₁ + c₂] matrix whose entry
  (p, k) is the first matrix's (p, k) when k < c₁ and the second's (p, k − c₁) otherwise. Generic in the extents and the
  element type.
-/
import Idealize.ShloMosaic.Lib.Pipeline.Value
import Idealize.ShloMosaic.Lib.ValueIdx

namespace Cert.LibJoinCols

open Idealize.ShloMosaic Idealize.ShloMosaic.ValueIdx

variable {α : Type}

/-- Entry (p, k) of the joined matrix, on the first matrix's side. -/
theorem join_cols_left {a c₁ c₂ c : Nat} (x₁ : (⟨2, ![a, c₁]⟩ : Shape).Idx → α) (x₂ : (⟨2, ![a, c₂]⟩ : Shape).Idx → α)
    (h : Shape.Concatenates [⟨2, ![a, c₁]⟩, ⟨2, ![a, c₂]⟩] ⟨2, ![a, c]⟩ (1 : Fin 2)) (p : Fin a) (k : Fin c) (hk : k.val < c₁) :
    concatenate ⟨2, ![a, c]⟩ (1 : Fin 2) [⟨⟨2, ![a, c₁]⟩, x₁⟩, ⟨⟨2, ![a, c₂]⟩, x₂⟩] h (ix2 p k) = x₁ (ix2 p (⟨k.val, hk⟩ : Fin c₁)) :=
  concatenate_pair_apply_left (t := ⟨2, ![a, c]⟩) (s₁ := ⟨2, ![a, c₁]⟩) (s₂ := ⟨2, ![a, c₂]⟩) (1 : Fin 2) x₁ x₂ h (ix2 p k) rfl
    (ix2 p (⟨k.val, hk⟩ : Fin c₁)) (by
      intro b
      match b with
      | ⟨0, _⟩ => rfl
      | ⟨1, _⟩ => rfl)

/-- Entry (p, k) of the joined matrix, on the second matrix's side. -/
theorem join_cols_right {a c₁ c₂ c : Nat} (x₁ : (⟨2, ![a, c₁]⟩ : Shape).Idx → α) (x₂ : (⟨2, ![a, c₂]⟩ : Shape).Idx → α)
    (h : Shape.Concatenates [⟨2, ![a, c₁]⟩, ⟨2, ![a, c₂]⟩] ⟨2, ![a, c]⟩ (1 : Fin 2)) (p : Fin a) (k : Fin c) (hk : c₁ ≤ k.val)
    (hk' : k.val - c₁ < c₂) :
    concatenate ⟨2, ![a, c]⟩ (1 : Fin 2) [⟨⟨2, ![a, c₁]⟩, x₁⟩, ⟨⟨2, ![a, c₂]⟩, x₂⟩] h (ix2 p k)
      = x₂ (ix2 p (⟨k.val - c₁, hk'⟩ : Fin c₂)) :=
  concatenate_pair_apply_right (t := ⟨2, ![a, c]⟩) (s₁ := ⟨2, ![a, c₁]⟩) (s₂ := ⟨2, ![a, c₂]⟩) (1 : Fin 2) x₁ x₂ h (ix2 p k) rfl rfl
    (ix2 p (⟨k.val - c₁, hk'⟩ : Fin c₂)) (by
      intro b hb
      match b with
      | ⟨0, _⟩ => rfl
      | ⟨1, _⟩ => exact absurd rfl hb) (by
      show k.val - c₁ + c₁ = k.val; omega)

end Cert.LibJoinCols
-- ==== Proof.PayloadAttnA.lean ====
/-
  The attention kernel's block arithmetic over the extended reals.

  One grid point of the attention kernel holds a 512-row block of queries and a 2048-row block of keys and values for
  two heads, each head's 64 channels in one half of the 128 columns. For each head it forms the three affine maps of
  the rows (a product with the transpose of a 64x64 matrix, a 64-vector added to every row), the scaled scores of
  every query row against every key row, their row maximum, the exponentials of the shifted scores, the row sums of
  these, the quotients, and the weighted sums of the value rows; the two heads' results are set side by side. Over the
  extended reals a change of float format is the identity and a product accumulated into the zero matrix is the plain
  sum, so each stage has a closed form at an entry, and the stored block has at row r and column g the head formula
  of the specification for head 0 (g < 64) or head 1 (g >= 64) at channel g mod 64.
-/
import proofs.«144325_j47253230190881_2_alg».proof.Proof.Gen.KernelIdeal.Skeleton
import proofs.«144325_j47253230190881_2_alg».proof.Proof.Spec
import proofs.«144325_j47253230190881_2_alg».proof.Proof.LibMatmulNT
import proofs.«144325_j47253230190881_2_alg».proof.Proof.LibMatmulPlain
import proofs.«144325_j47253230190881_2_alg».proof.Proof.LibRows
import proofs.«144325_j47253230190881_2_alg».proof.Proof.LibRowMax
import proofs.«144325_j47253230190881_2_alg».proof.Proof.LibJoinCols
import Idealize.ShloMosaic.Lib.ValueLayout

noncomputable section

open scoped BigOperators

namespace Cert.KernelIdeal.Payload

open Idealize.ShloMosaic Idealize.ShloMosaic.ValueIdx Cert.KernelIdeal

/-! ## The stages as functions of arrays -/

/-- Every row of an [M, 64] block through one affine map: the product with the transpose of `W`, `c` added. -/
def linV {M : Nat} (D : DotDims ⟨2, ![M, 64]⟩ S64x64 ⟨2, ![M, 64]⟩) (hb : S1x64.Broadcasts ⟨2, ![M, 64]⟩)
    (x : FVec Ideal ⟨2, ![M, 64]⟩ .bf16) (W : FVec Ideal S64x64 .bf16) (c : FVec Ideal S64 .f32) :
    FVec Ideal ⟨2, ![M, 64]⟩ .bf16 :=
  truncf .bf16
    (addf (matmul D none x W (constant (F := Ideal) ⟨2, ![M, 64]⟩ .f32 0x00000000#32))
      (broadcastTo ⟨2, ![M, 64]⟩ (shapeCast S1x64 c Gen.shapeCasts_S64_S1x64) hb))
    Gen.bitsLt_bf16_f32

/-- The scaled scores of the 512 query rows against the 2048 key rows. -/
def scoresV (x : FVec Ideal S512x64 .bf16) (y : FVec Ideal S2048x64 .bf16) (Wq Wk : FVec Ideal S64x64 .bf16)
    (cq ck : FVec Ideal S64 .f32) : FVec Ideal S512x2048 .f32 :=
  mulf
    (matmul dot_S512x64_S2048x64_S512x2048_1_1_0_0_n_n none
      (linV dot_S512x64_S64x64_S512x64_1_1_0_0_n_n Gen.broadcasts_S1x64_S512x64 x Wq cq)
      (linV dot_S2048x64_S64x64_S2048x64_1_1_0_0_n_n Gen.broadcasts_S1x64_S2048x64 y Wk ck)
      (constant (F := Ideal) S512x2048 .f32 0x00000000#32))
    (broadcast S512x2048 (Scalar.ofBits (F := Ideal) .f32 0x3E000000#32))

/-- The largest score of each row, as a column. -/
def rowmaxV (S : FVec Ideal S512x2048 .f32) : FVec Ideal S512x1 .f32 :=
  shapeCast S512x1
    (multiReduction .maximumf [1] S512 S 0xFF800000#32 Gen.reduces_S512x2048_S512 (.inl rfl) rfl)
    Gen.shapeCasts_S512_S512x1

/-- The weights from the scores `S` and the column `m` subtracted from them, applied to the value rows `V`. -/
def coreV (S : FVec Ideal S512x2048 .f32) (m : FVec Ideal S512x1 .f32) (V : FVec Ideal S2048x64 .bf16) :
    FVec Ideal S512x64 .f32 :=
  matmul dot_S512x2048_S2048x64_S512x64_1_0_0_1_n_n none
    (truncf .bf16
      (divf (exp (subf S (broadcastTo S512x2048 m Gen.broadcasts_S512x1_S512x2048)))
        (broadcastTo S512x2048
          (shapeCast S512x1
            (multiReduction .add [1] S512 (exp (subf S (broadcastTo S512x2048 m Gen.broadcasts_S512x1_S512x2048)))
              0x00000000#32 Gen.reduces_S512x2048_S512 (.inl rfl) rfl)
            Gen.shapeCasts_S512_S512x1)
          Gen.broadcasts_S512x1_S512x2048))
      Gen.bitsLt_bf16_f32)
    V (constant (F := Ideal) S512x64 .f32 0x00000000#32)

/-! ## Each stage at an entry -/

/-- The affine map at row `p`, channel `e`. -/
theorem linV_apply {M : Nat} (D : DotDims ⟨2, ![M, 64]⟩ S64x64 ⟨2, ![M, 64]⟩) (hD : D = DotDims.transposedRhs M 64 64)
    (hb : S1x64.Broadcasts ⟨2, ![M, 64]⟩) (x : FVec Ideal ⟨2, ![M, 64]⟩ .bf16) (W : FVec Ideal S64x64 .bf16)
    (c : FVec Ideal S64 .f32) (p : Fin M) (e : Fin 64) :
    linV D hb x W c (ix2 p e)
      = Cert.Spec.lin (fun d => x (ix2 p d)) (fun e' d => W (ix2 e' d)) (fun e' => c (ix1 e')) e := by
  unfold linV Cert.Spec.lin
  show FloatOps.truncf _ _ (FloatOps.addf _ _) = _
  rw [Ideal.truncf_def, Ideal.addf_def]
  refine congrArg₂ (· + ·) ?_ ?_
  · exact Cert.LibMatmulNT.matmul_nt_zero_apply D hD none x W p e
  · refine (broadcastTo_1b_ab_apply _ hb p e).trans ?_
    exact shapeCast_a_1a_apply c _ (0 : Fin 1) e

/-- The scaled score of query row `p` against key row `q`. -/
theorem scoresV_apply (x : FVec Ideal S512x64 .bf16) (y : FVec Ideal S2048x64 .bf16) (Wq Wk : FVec Ideal S64x64 .bf16)
    (cq ck : FVec Ideal S64 .f32) (p : Fin 512) (q : Fin 2048) :
    scoresV x y Wq Wk cq ck (ix2 p q)
      = Cert.Spec.score (fun d => x (ix2 p d)) (fun j d => y (ix2 j d)) (fun e d => Wq (ix2 e d)) (fun e => cq (ix1 e))
          (fun e d => Wk (ix2 e d)) (fun e => ck (ix1 e)) q := by
  unfold scoresV Cert.Spec.score
  show FloatOps.mulf _ _ = _
  rw [Ideal.mulf_def]
  refine congrArg₂ (· * ·) ?_ rfl
  refine (Cert.LibMatmulNT.matmul_nt_zero_apply _ rfl none _ _ p q).trans ?_
  exact Finset.sum_congr rfl fun e _ =>
    congrArg₂ (· * ·) (linV_apply _ rfl _ x Wq cq p e) (linV_apply _ rfl _ y Wk ck q e)

/-- The row maximum at row `p`: the fold of the maximum from minus infinity over the row. -/
theorem rowmaxV_apply (S : FVec Ideal S512x2048 .f32) (p : Fin 512) (u : Fin 1) :
    rowmaxV S (ix2 p u) = Cert.Spec.top (fun q => S (ix2 p q)) := by
  unfold rowmaxV Cert.Spec.top
  refine (Cert.LibRows.col_cast_apply _ _ p u).trans ?_
  exact Cert.LibRowMax.lane_max_last_apply S 0xFF800000#32 _ _ _ p

/-- The weighted sum of the value rows at row `p`, channel `e`. -/
theorem coreV_apply (S : FVec Ideal S512x2048 .f32) (m : FVec Ideal S512x1 .f32) (V : FVec Ideal S2048x64 .bf16)
    (p : Fin 512) (e : Fin 64) :
    coreV S m V (ix2 p e)
      = ∑ j : Fin 2048, Ideal.div (Ideal.exp (S (ix2 p j) - m (ix2 p (0 : Fin 1))))
          (∑ j' : Fin 2048, Ideal.exp (S (ix2 p j') - m (ix2 p (0 : Fin 1)))) * V (ix2 j e) := by
  unfold coreV
  refine (Cert.LibMatmulPlain.matmul_plain_zero_apply _ rfl none _ V p e).trans ?_
  have hE : ∀ j : Fin 2048,
      exp (subf S (broadcastTo S512x2048 m Gen.broadcasts_S512x1_S512x2048)) (ix2 p j)
        = Ideal.exp (S (ix2 p j) - m (ix2 p (0 : Fin 1))) := fun j =>
    congrArg (fun t => Ideal.exp (S (ix2 p j) - t))
      (Cert.LibRows.bcast_col_apply m Gen.broadcasts_S512x1_S512x2048 p j)
  refine Finset.sum_congr rfl fun j _ => congrArg (· * V (ix2 j e)) ?_
  show FloatOps.truncf _ _ (FloatOps.divf _ _) = _
  rw [Ideal.truncf_def, Ideal.divf_def]
  refine congrArg₂ Ideal.div (hE j) ?_
  refine (Cert.LibRows.bcast_col_apply _ _ p j).trans ?_
  refine (Cert.LibRows.col_cast_apply _ _ p (0 : Fin 1)).trans ?_
  refine (Cert.LibRows.lane_sum_last_apply _ _ _ _ p).trans ?_
  exact Finset.sum_congr rfl fun j' _ => hE j'

/-- The weighted sum when the scores, the subtracted column and the value rows are known at row `p`. -/
theorem coreV_of (S : FVec Ideal S512x2048 .f32) (m : FVec Ideal S512x1 .f32) (V : FVec Ideal S2048x64 .bf16)
    (p : Fin 512) (e : Fin 64) (s val : Fin 2048 → EReal) (hS : ∀ j, S (ix2 p j) = s j)
    (hm : m (ix2 p (0 : Fin 1)) = Cert.Spec.top s) (hV : ∀ j, V (ix2 j e) = val j) :
    coreV S m V (ix2 p e)
      = ∑ j : Fin 2048, Ideal.div (Ideal.exp (s j - Cert.Spec.top s))
          (∑ j' : Fin 2048, Ideal.exp (s j' - Cert.Spec.top s)) * val j := by
  refine (coreV_apply S m V p e).trans ?_
  rw [hm]
  have hden : (∑ j' : Fin 2048, Ideal.exp (S (ix2 p j') - Cert.Spec.top s))
      = ∑ j' : Fin 2048, Ideal.exp (s j' - Cert.Spec.top s) :=
    Finset.sum_congr rfl fun j' _ => by rw [hS j']
  rw [hden]
  exact Finset.sum_congr rfl fun j _ => by rw [hS j, hV j]

/-- One head: from the query rows `x`, the key and value rows `y` and the three maps, the specification's head formula. -/
theorem headV_apply (x : FVec Ideal S512x64 .bf16) (y : FVec Ideal S2048x64 .bf16) (Wq Wk Wv : FVec Ideal S64x64 .bf16)
    (cq ck cv : FVec Ideal S64 .f32) (p : Fin 512) (e : Fin 64) :
    coreV (scoresV x y Wq Wk cq ck) (rowmaxV (scoresV x y Wq Wk cq ck))
        (linV dot_S2048x64_S64x64_S2048x64_1_1_0_0_n_n Gen.broadcasts_S1x64_S2048x64 y Wv cv) (ix2 p e)
      = Cert.Spec.head (fun d => x (ix2 p d)) (fun j d => y (ix2 j d)) (fun e' d => Wq (ix2 e' d)) (fun e' => cq (ix1 e'))
          (fun e' d => Wk (ix2 e' d)) (fun e' => ck (ix1 e')) (fun e' d => Wv (ix2 e' d)) (fun e' => cv (ix1 e')) e := by
  have hS := fun j : Fin 2048 => scoresV_apply x y Wq Wk cq ck p j
  exact coreV_of _ _ _ p e _ _ hS
    ((rowmaxV_apply _ p (0 : Fin 1)).trans (congrArg Cert.Spec.top (funext hS)))
    (fun j => linV_apply _ rfl _ y Wv cv j e)

end Cert.KernelIdeal.Payload

end
-- ==== Proof.PayloadAttn.lean ====
/-
  The attention kernel's stored block at an entry, over the extended reals.

  The generated payload terms of the attention kernel are, by unfolding, the stage functions of the companion module
  applied to the loaded blocks: the casts of a block to its own shape are the identity, a [1, n, 64] block read as an
  [n, 64] matrix has the same entries, and the stored [1, 512, 128] block is the two heads' [512, 64] results side by
  side. Hence the stored value at row r and column g is the specification's head formula on the left 64 columns of the
  query and key/value blocks when g < 64, and on their right 64 columns, at channel g - 64, otherwise.
-/
import proofs.«144325_j47253230190881_2_alg».proof.Proof.PayloadAttnA

noncomputable section

open scoped BigOperators

namespace Cert.KernelIdeal.Payload

open Idealize.ShloMosaic Idealize.ShloMosaic.ValueIdx Cert.KernelIdeal

/-! ## The casts of a block to its own shape -/

theorem pay2_eq (v0 : Vec Ideal S64x64 .bf16) : Gen.k0_pay2 (F := Ideal) v0 = v0 := shapeCast_self v0 _
theorem pay3_eq (v2 : Vec Ideal S64x64 .bf16) : Gen.k0_pay3 (F := Ideal) v2 = v2 := shapeCast_self v2 _
theorem pay4_eq (v4 : Vec Ideal S64x64 .bf16) : Gen.k0_pay4 (F := Ideal) v4 = v4 := shapeCast_self v4 _
theorem pay5_eq (v6 : Vec Ideal S64 .f32) : Gen.k0_pay5 (F := Ideal) v6 = v6 := shapeCast_self v6 _
theorem pay6_eq (v8 : Vec Ideal S64 .f32) : Gen.k0_pay6 (F := Ideal) v8 = v8 := shapeCast_self v8 _
theorem pay7_eq (v10 : Vec Ideal S64 .f32) : Gen.k0_pay7 (F := Ideal) v10 = v10 := shapeCast_self v10 _

/-! ## The payloads as the stage functions -/

theorem pay9_eq (v4 : Vec Ideal S64x64 .bf16) (v10 : Vec Ideal S64 .f32) (v14 : Vec Ideal S1x2048x64 .bf16) :
    Gen.k0_pay9 (F := Ideal) v4 v10 v14
      = linV dot_S2048x64_S64x64_S2048x64_1_1_0_0_n_n Gen.broadcasts_S1x64_S2048x64
          (shapeCast S2048x64 v14 Gen.shapeCasts_S1x2048x64_S2048x64) (Gen.k0_pay4 v4) (Gen.k0_pay7 v10) := rfl

theorem pay10_eq (v0 v2 : Vec Ideal S64x64 .bf16) (v6 v8 : Vec Ideal S64 .f32) (v12 : Vec Ideal S1x512x64 .bf16)
    (v14 : Vec Ideal S1x2048x64 .bf16) :
    Gen.k0_pay10 (F := Ideal) v0 v2 v6 v8 v12 v14
      = scoresV (shapeCast S512x64 v12 Gen.shapeCasts_S1x512x64_S512x64)
          (shapeCast S2048x64 v14 Gen.shapeCasts_S1x2048x64_S2048x64)
          (Gen.k0_pay2 v0) (Gen.k0_pay3 v2) (Gen.k0_pay5 v6) (Gen.k0_pay6 v8) := rfl

theorem pay11_eq (v0 v2 : Vec Ideal S64x64 .bf16) (v6 v8 : Vec Ideal S64 .f32) (v12 : Vec Ideal S1x512x64 .bf16)
    (v14 : Vec Ideal S1x2048x64 .bf16) :
    Gen.k0_pay11 (F := Ideal) v0 v2 v6 v8 v12 v14 = rowmaxV (Gen.k0_pay10 v0 v2 v6 v8 v12 v14) := rfl

theorem pay12_eq (v1 v3 v5 : FVec Ideal S64x64 .bf16) (v7 v9 v11 : FVec Ideal S64 .f32) (v30 : FVec Ideal S2048x64 .bf16)
    (v33 : FVec Ideal S512x2048 .f32) (v35 : FVec Ideal S512x1 .f32) (v45 : Vec Ideal S1x512x64 .bf16)
    (v47 : Vec Ideal S1x2048x64 .bf16) :
    Gen.k0_pay12 (F := Ideal) v1 v3 v5 v7 v9 v11 v30 v33 v35 v45 v47
      = truncf .bf16
          (concatenate S512x128 1
            [⟨S512x64, coreV v33 v35 v30⟩,
             ⟨S512x64,
               coreV
                 (scoresV (shapeCast S512x64 v45 Gen.shapeCasts_S1x512x64_S512x64)
                   (shapeCast S2048x64 v47 Gen.shapeCasts_S1x2048x64_S2048x64) v1 v3 v7 v9)
                 (rowmaxV
                   (scoresV (shapeCast S512x64 v45 Gen.shapeCasts_S1x512x64_S512x64)
                     (shapeCast S2048x64 v47 Gen.shapeCasts_S1x2048x64_S2048x64) v1 v3 v7 v9))
                 (linV dot_S2048x64_S64x64_S2048x64_1_1_0_0_n_n Gen.broadcasts_S1x64_S2048x64
                   (shapeCast S2048x64 v47 Gen.shapeCasts_S1x2048x64_S2048x64) v5 v11)⟩]
            Gen.concatenates_S512x64_S512x64_S512x128_d1)
          Gen.bitsLt_bf16_f32 := rfl

/-! ## One head from the loaded blocks -/

/-- One head's result at row `r`, channel `e`, from a [1, 512, 64] query block `xq` and a [1, 2048, 64] key/value
    block `yk`: the specification's head formula on the blocks' rows. -/
theorem head_blocks (v0 v2 v4 : Vec Ideal S64x64 .bf16) (v6 v8 v10 : Vec Ideal S64 .f32) (xq : Vec Ideal S1x512x64 .bf16)
    (yk : Vec Ideal S1x2048x64 .bf16) (r : Fin 512) (e : Fin 64) :
    coreV
        (scoresV (shapeCast S512x64 xq Gen.shapeCasts_S1x512x64_S512x64)
          (shapeCast S2048x64 yk Gen.shapeCasts_S1x2048x64_S2048x64)
          (Gen.k0_pay2 v0) (Gen.k0_pay3 v2) (Gen.k0_pay5 v6) (Gen.k0_pay6 v8))
        (rowmaxV
          (scoresV (shapeCast S512x64 xq Gen.shapeCasts_S1x512x64_S512x64)
            (shapeCast S2048x64 yk Gen.shapeCasts_S1x2048x64_S2048x64)
            (Gen.k0_pay2 v0) (Gen.k0_pay3 v2) (Gen.k0_pay5 v6) (Gen.k0_pay6 v8)))
        (linV dot_S2048x64_S64x64_S2048x64_1_1_0_0_n_n Gen.broadcasts_S1x64_S2048x64
          (shapeCast S2048x64 yk Gen.shapeCasts_S1x2048x64_S2048x64) (Gen.k0_pay4 v4) (Gen.k0_pay7 v10))
        (ix2 r e)
      = Cert.Spec.head (fun d => xq (ix3 0 r d)) (fun j d => yk (ix3 0 j d))
          (fun e d => v0 (ix2 e d)) (fun e => v6 (ix1 e)) (fun e d => v2 (ix2 e d)) (fun e => v8 (ix1 e))
            (fun e d => v4 (ix2 e d)) (fun e => v10 (ix1 e)) e := by
  rw [pay2_eq, pay3_eq, pay4_eq, pay5_eq, pay6_eq, pay7_eq]
  refine (headV_apply _ _ v0 v2 v4 v6 v8 v10 r e).trans ?_
  have hx : (fun d : Fin 64 => shapeCast S512x64 xq Gen.shapeCasts_S1x512x64_S512x64 (ix2 r d))
      = fun d => xq (ix3 0 r d) := funext fun d => shapeCast_1ab_ab_apply xq _ r d
  have hy : (fun (j : Fin 2048) (d : Fin 64) => shapeCast S2048x64 yk Gen.shapeCasts_S1x2048x64_S2048x64 (ix2 j d))
      = fun j d => yk (ix3 0 j d) := funext fun j => funext fun d => shapeCast_1ab_ab_apply yk _ j d
  rw [hx, hy]

/-! ## The stored block -/

/-- The attention kernel's stored block at row `r`, column `g`. -/
theorem attn_apply (v0 v2 v4 : Vec Ideal S64x64 .bf16) (v6 v8 v10 : Vec Ideal S64 .f32)
    (v12 v45 : Vec Ideal S1x512x64 .bf16) (v14 v47 : Vec Ideal S1x2048x64 .bf16) (r : Fin 512) (g : Fin 128) :
    Gen.k0_pay1 (F := Ideal)
        (Gen.k0_pay12 (Gen.k0_pay2 v0) (Gen.k0_pay3 v2) (Gen.k0_pay4 v4) (Gen.k0_pay5 v6) (Gen.k0_pay6 v8)
          (Gen.k0_pay7 v10) (Gen.k0_pay9 v4 v10 v14) (Gen.k0_pay10 v0 v2 v6 v8 v12 v14)
          (Gen.k0_pay11 v0 v2 v6 v8 v12 v14) v45 v47) (ix3 0 r g)
      = if h : g.val < 64 then
          Cert.Spec.head (fun d => v12 (ix3 0 r d)) (fun j d => v14 (ix3 0 j d))
            (fun e d => v0 (ix2 e d)) (fun e => v6 (ix1 e)) (fun e d => v2 (ix2 e d)) (fun e => v8 (ix1 e))
            (fun e d => v4 (ix2 e d)) (fun e => v10 (ix1 e)) ⟨g.val, h⟩
        else
          Cert.Spec.head (fun d => v45 (ix3 0 r d)) (fun j d => v47 (ix3 0 j d))
            (fun e d => v0 (ix2 e d)) (fun e => v6 (ix1 e)) (fun e d => v2 (ix2 e d)) (fun e => v8 (ix1 e))
            (fun e d => v4 (ix2 e d)) (fun e => v10 (ix1 e)) ⟨g.val - 64, by omega⟩ := by
  unfold Gen.k0_pay1
  refine (shapeCast_ab_1ab_apply _ _ (0 : Fin 1) r g).trans ?_
  rw [pay12_eq]
  show FloatOps.truncf _ _ _ = _
  rw [Ideal.truncf_def]
  by_cases h : g.val < 64
  · rw [dif_pos h]
    refine (Cert.LibJoinCols.join_cols_left _ _ _ r g h).trans ?_
    exact head_blocks v0 v2 v4 v6 v8 v10 v12 v14 r ⟨g.val, h⟩
  · rw [dif_neg h]
    refine (Cert.LibJoinCols.join_cols_right _ _ _ r g (Nat.le_of_not_lt h) (by omega)).trans ?_
    exact head_blocks v0 v2 v4 v6 v8 v10 v45 v47 r ⟨g.val - 64, by omega⟩

end Cert.KernelIdeal.Payload

end
-- ==== Proof.Value0.lean ====
/-
  The attention region's output array as one function of the arrays the region reads.

  The region's grid has 4 x 8 x 4 points (batch b, pair of heads hp, tile ti of 512 query rows). Point (b, hp, ti)
  writes the [1, 512, 128] tile of the output array at block index (b, ti, hp); the 128 tiles partition the
  [4, 2048, 1024] array, index (b, t, g) lying in the tile with ti = t / 512 and hp = g / 128. The point reads the tile
  of the input array at the same block index (the query rows) and the [1, 2048, 128] band at block index (b, 0, hp)
  (all key and value rows of the pair of heads), and the three 64 x 64 matrices and three 64-vectors whole.

  Column k of the stored tile belongs to the head 2 hp + k / 64 at channel k % 64: the left 64 columns of the tile and
  of the band feed the first head of the pair, the right 64 columns the second. Since array column 128 hp + k equals
  64 (2 hp + k / 64) + k % 64, the stored entry at (0, r, k) is the specification's head formula for batch b, position
  512 ti + r, head (128 hp + k) / 64 and channel (128 hp + k) % 64: the value of the whole-array attention function
  at the entry's place in the array. As the tiles cover the array, the array ends holding that function.
-/
import proofs.«144325_j47253230190881_2_alg».proof.Proof.Frame0
import proofs.«144325_j47253230190881_2_alg».proof.Proof.PayloadAttn
import proofs.«144325_j47253230190881_2_alg».proof.Proof.Spec2
import Idealize.ShloMosaic.Lib.Pipeline.Value

set_option maxRecDepth 16384

noncomputable section

namespace Cert.KernelIdeal.Val0

open Cert.KernelIdeal Cert.KernelIdeal.Gen Cert.KernelIdeal.Fr Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block rectangle, at ranks three, two and one. -/
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The left 64 columns of a [1, 512, 128] tile: entry (0, r, d) of the loaded half is entry (0, r, d) of the tile. -/
theorem ql_idx (r : Fin 512) (d : Fin 64) :
    (r0_ql : Rect S1x512x128).idx (ix3 (0 : Fin 1) r d) = ix3 (0 : Fin 1) r (⟨d.val, by have := d.isLt; omega⟩ : Fin 128) := by
  funext a; apply Fin.ext
  match a with
  | ⟨0, _⟩ => rfl
  | ⟨1, _⟩ => show 0 + 1 * r.val = r.val; omega
  | ⟨2, _⟩ => show 0 + 1 * d.val = d.val; omega

/-- The right 64 columns of the tile: entry (0, r, d) of the loaded half is entry (0, r, 64 + d) of the tile. -/
theorem qr_idx (r : Fin 512) (d : Fin 64) :
    (r0_qr : Rect S1x512x128).idx (ix3 (0 : Fin 1) r d) = ix3 (0 : Fin 1) r (⟨64 + d.val, by have := d.isLt; omega⟩ : Fin 128) := by
  funext a; apply Fin.ext
  match a with
  | ⟨0, _⟩ => rfl
  | ⟨1, _⟩ => show 0 + 1 * r.val = r.val; omega
  | ⟨2, _⟩ => show 64 + 1 * d.val = 64 + d.val; omega

/-- The left 64 columns of the [1, 2048, 128] band. -/
theorem kl_idx (r : Fin 2048) (d : Fin 64) :
    (r0_kl : Rect S1x2048x128).idx (ix3 (0 : Fin 1) r d) = ix3 (0 : Fin 1) r (⟨d.val, by have := d.isLt; omega⟩ : Fin 128) := by
  funext a; apply Fin.ext
  match a with
  | ⟨0, _⟩ => rfl
  | ⟨1, _⟩ => show 0 + 1 * r.val = r.val; omega
  | ⟨2, _⟩ => show 0 + 1 * d.val = d.val; omega

/-- The right 64 columns of the band. -/
theorem kr_idx (r : Fin 2048) (d : Fin 64) :
    (r0_kr : Rect S1x2048x128).idx (ix3 (0 : Fin 1) r d) = ix3 (0 : Fin 1) r (⟨64 + d.val, by have := d.isLt; omega⟩ : Fin 128) := by
  funext a; apply Fin.ext
  match a with
  | ⟨0, _⟩ => rfl
  | ⟨1, _⟩ => show 0 + 1 * r.val = r.val; omega
  | ⟨2, _⟩ => show 64 + 1 * d.val = 64 + d.val; omega

/-- The head formula depends on the query row, the key / value rows and the channel only through their values. -/
theorem head_congr {rq rq' : Fin 64 → EReal} {rk rk' : Fin 2048 → Fin 64 → EReal}
    (Wq : Fin 64 → Fin 64 → EReal) (cq : Fin 64 → EReal) (Wk : Fin 64 → Fin 64 → EReal) (ck : Fin 64 → EReal)
    (Wv : Fin 64 → Fin 64 → EReal) (cv : Fin 64 → EReal) {e e' : Fin 64}
    (h1 : rq = rq') (h2 : rk = rk') (he : e = e') :
    Cert.Spec.head rq rk Wq cq Wk ck Wv cv e = Cert.Spec.head rq' rk' Wq cq Wk ck Wv cv e' := by
  subst h1 h2 he; rfl

/-- The stored tile at an entry `y`, for blocks that are restrictions of one array `X`: when the tile `x0` is rows
    `512 n1 ..` and columns `128 n2 ..` of batch `n0` of `X`, the band `x1` is all rows and the same columns of that
    batch, and the weight and bias blocks are the arrays `Wq` … `cv`, the entry is the whole-array attention function
    at the index `i` the entry has in the array. -/
theorem tile_eq (X : Vec Ideal S4x2048x1024 .bf16) (Wq Wk Wv : Vec Ideal S64x64 .bf16) (cq ck cv : Vec Ideal S64 .f32)
    (x0 : Vec Ideal S1x512x128 .bf16) (x1 : Vec Ideal S1x2048x128 .bf16) (x2 x3 x4 : Vec Ideal S64x64 .bf16) (x5 x6 x7 : Vec Ideal S64 .f32)
    (i : S4x2048x1024.Idx) (y : S1x512x128.Idx) (n0 n1 n2 : Nat)
    (hi0 : (i 0).val = n0) (hi1 : (i 1).val = n1 * 512 + (y 1).val) (hi2 : (i 2).val = n2 * 128 + (y 2).val)
    (h2 : x2 = Wq) (h3 : x3 = Wk) (h4 : x4 = Wv) (h5 : x5 = cq) (h6 : x6 = ck) (h7 : x7 = cv)
    (h0 : ∀ (r : Fin 512) (k : Fin 128) (i' : S4x2048x1024.Idx), (i' 0).val = n0 → (i' 1).val = n1 * 512 + r.val → (i' 2).val = n2 * 128 + k.val → x0 (ix3 0 r k) = X i')
    (h1 : ∀ (j : Fin 2048) (k : Fin 128) (i' : S4x2048x1024.Idx), (i' 0).val = n0 → (i' 1).val = j.val → (i' 2).val = n2 * 128 + k.val → x1 (ix3 0 j k) = X i') :
    k0_pay1 (F := Ideal) (k0_pay12 (k0_pay2 (View.ld x2 r0_w)) (k0_pay3 (View.ld x3 r0_w)) (k0_pay4 (View.ld x4 r0_w)) (k0_pay5 (View.ld x5 r0_b)) (k0_pay6 (View.ld x6 r0_b)) (k0_pay7 (View.ld x7 r0_b))
      (k0_pay9 (View.ld x4 r0_w) (View.ld x7 r0_b) (View.ld x1 r0_kl))
      (k0_pay10 (View.ld x2 r0_w) (View.ld x3 r0_w) (View.ld x5 r0_b) (View.ld x6 r0_b) (View.ld x0 r0_ql) (View.ld x1 r0_kl))
      (k0_pay11 (View.ld x2 r0_w) (View.ld x3 r0_w) (View.ld x5 r0_b) (View.ld x6 r0_b) (View.ld x0 r0_ql) (View.ld x1 r0_kl))
      (View.ld x0 r0_qr) (View.ld x1 r0_kr)) y
      = Cert.Spec.attnG X Wq Wk Wv cq ck cv i := by
  subst h2 h3 h4 h5 h6 h7
  obtain ⟨p, r, g, rfl⟩ : ∃ (p : Fin 1) (r : Fin 512) (g : Fin 128), y = ix3 p r g := ⟨y 0, y 1, y 2, eq_ix3 y⟩
  obtain rfl : p = 0 := Subsingleton.elim _ _
  have hi1' : (i 1).val = n1 * 512 + r.val := hi1
  have hi2' : (i 2).val = n2 * 128 + g.val := hi2
  simp only [View.ld_unit_zero (S := S64x64) hz2, View.ld_unit_zero (S := S64) hz1]
  refine (Cert.KernelIdeal.Payload.attn_apply x2 x3 x4 x5 x6 x7 (View.ld x0 r0_ql) (View.ld x0 r0_qr) (View.ld x1 r0_kl) (View.ld x1 r0_kr) r g).trans ?_
  have hg := g.isLt
  unfold Cert.Spec.attnG
  by_cases h : g.val < 64
  · rw [dif_pos h]
    refine head_congr _ _ _ _ _ _ (funext fun d => ?_) (funext fun j => funext fun d => ?_) (Fin.ext ?_)
    · refine (congrArg x0 (ql_idx r d)).trans (h0 r _ _ hi0 hi1' ?_)
      show 64 * ((i 2).val / 64) + d.val = n2 * 128 + d.val
      omega
    · refine (congrArg x1 (kl_idx j d)).trans (h1 j _ _ hi0 rfl ?_)
      show 64 * ((i 2).val / 64) + d.val = n2 * 128 + d.val
      omega
    · show g.val = (i 2).val % 64
      omega
  · rw [dif_neg h]
    refine head_congr _ _ _ _ _ _ (funext fun d => ?_) (funext fun j => funext fun d => ?_) (Fin.ext ?_)
    · refine (congrArg x0 (qr_idx r d)).trans (h0 r _ _ hi0 hi1' ?_)
      show 64 * ((i 2).val / 64) + d.val = n2 * 128 + (64 + d.val)
      have := d.isLt
      omega
    · refine (congrArg x1 (kr_idx j d)).trans (h1 j _ _ hi0 rfl ?_)
      show 64 * ((i 2).val / 64) + d.val = n2 * 128 + (64 + d.val)
      have := d.isLt
      omega
    · show g.val - 64 = (i 2).val % 64
      omega

/-! ## The printed index maps, decided over the 128 grid points -/

/-- The query tile moves with the output tile. -/
theorem idx_q : ∀ t : Fin cfg0.N, win0_0.index t (0 : Fin 3) = win0_8.index t (0 : Fin 3)
    ∧ win0_0.index t (1 : Fin 3) = win0_8.index t (1 : Fin 3)
    ∧ win0_0.index t (2 : Fin 3) = win0_8.index t (2 : Fin 3) :=
  (by decide +kernel : ∀ t : Fin grid0.N, _)

/-- The key / value band has the output tile's batch and pair of heads, and all rows. -/
theorem idx_k : ∀ t : Fin cfg0.N, win0_1.index t (0 : Fin 3) = win0_8.index t (0 : Fin 3)
    ∧ win0_1.index t (1 : Fin 3) = 0
    ∧ win0_1.index t (2 : Fin 3) = win0_8.index t (2 : Fin 3) :=
  (by decide +kernel : ∀ t : Fin grid0.N, _)

/-- The weight and bias windows are whole arrays. -/
theorem idx_w : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0 ∧ win0_6.index t (0 : Fin 1) = 0 ∧ win0_7.index t (0 : Fin 1) = 0 :=
  (by decide +kernel : ∀ t : Fin grid0.N, _)

/-- The output tile's block indices stay in their ranges. -/
theorem idx_range : ∀ t : Fin cfg0.N, win0_8.index t (0 : Fin 3) ≤ 3 ∧ win0_8.index t (1 : Fin 3) ≤ 3 ∧ win0_8.index t (2 : Fin 3) ≤ 7 :=
  (by decide +kernel : ∀ t : Fin grid0.N, _)

/-- Every block index of the output array is some point's. -/
theorem idx_onto : ∀ (q0 : Fin 4) (q1 : Fin 4) (q2 : Fin 8), ∃ t : Fin cfg0.N, win0_8.index t = ![q0.val, q1.val, q2.val] :=
  (by decide +kernel : ∀ (q0 : Fin 4) (q1 : Fin 4) (q2 : Fin 8), ∃ t : Fin grid0.N, win0_8.index t = ![q0.val, q1.val, q2.val])

/-! ## From tiles to the array -/

/-- What point `t` writes back is tile `t` of the attention function of the arrays as the region finds them. -/
theorem flushed_eq (c : Dev nD) (t : Fin cfg0.N) :
    (dat0 (F := Ideal) V c).flushed 8 t = ((cfg0.win 8).blk t).view.read (Elt Ideal)
      (Cert.Spec.attnG (V c main_v0) (V c main_v7) (V c main_v8) (V c main_v9) (V c main_v4) (V c main_v5) (V c main_v6)) := by
  show (cfg0.win 8).cut (grid0.coords t) ((dat0 V c).after 8 t) = _
  rw [after0_8]
  unfold out0_8
  rw [View.canon_unit_zero hz3]
  obtain ⟨q0, q1, q2⟩ := idx_q t
  obtain ⟨k0, k1, k2⟩ := idx_k t
  obtain ⟨w20, w21, w30, w31, w40, w41, w5, w6, w7⟩ := idx_w t
  funext j
  have hj0 : (j 0).val < 1 := (j 0).isLt
  refine tile_eq (V c main_v0) (V c main_v7) (V c main_v8) (V c main_v9) (V c main_v4) (V c main_v5) (V c main_v6)
    (iblk0 V c 0 t) (iblk0 V c 1 t) (iblk0 V c 2 t) (iblk0 V c 3 t) (iblk0 V c 4 t) (iblk0 V c 5 t) (iblk0 V c 6 t) (iblk0 V c 7 t)
    (((cfg0.win 8).blk t).view.emb j) j (win0_8.index t 0) (win0_8.index t 1) (win0_8.index t 2) ?_ ?_ ?_ ?_ ?_ ?_ ?_ ?_ ?_ ?_ ?_
  · show win0_8.index t (0 : Fin 3) * 1 + 1 * (j 0).val = win0_8.index t (0 : Fin 3); omega
  · show win0_8.index t (1 : Fin 3) * 512 + 1 * (j 1).val = win0_8.index t (1 : Fin 3) * 512 + (j 1).val; omega
  · show win0_8.index t (2 : Fin 3) * 128 + 1 * (j 2).val = win0_8.index t (2 : Fin 3) * 128 + (j 2).val; omega
  · funext y
    show V c main_v7 (((cfg0.win 2).blk t).view.emb y) = V c main_v7 y
    congr 1; funext a; apply Fin.ext
    match a with
    | ⟨0, _⟩ => show win0_2.index t (0 : Fin 2) * 64 + 1 * (y 0).val = (y 0).val; omega
    | ⟨1, _⟩ => show win0_2.index t (1 : Fin 2) * 64 + 1 * (y 1).val = (y 1).val; omega
  · funext y
    show V c main_v8 (((cfg0.win 3).blk t).view.emb y) = V c main_v8 y
    congr 1; funext a; apply Fin.ext
    match a with
    | ⟨0, _⟩ => show win0_3.index t (0 : Fin 2) * 64 + 1 * (y 0).val = (y 0).val; omega
    | ⟨1, _⟩ => show win0_3.index t (1 : Fin 2) * 64 + 1 * (y 1).val = (y 1).val; omega
  · funext y
    show V c main_v9 (((cfg0.win 4).blk t).view.emb y) = V c main_v9 y
    congr 1; funext a; apply Fin.ext
    match a with
    | ⟨0, _⟩ => show win0_4.index t (0 : Fin 2) * 64 + 1 * (y 0).val = (y 0).val; omega
    | ⟨1, _⟩ => show win0_4.index t (1 : Fin 2) * 64 + 1 * (y 1).val = (y 1).val; omega
  · funext y
    show V c main_v4 (((cfg0.win 5).blk t).view.emb y) = V c main_v4 y
    congr 1; funext a; apply Fin.ext
    match a with
    | ⟨0, _⟩ => show win0_5.index t (0 : Fin 1) * 64 + 1 * (y 0).val = (y 0).val; omega
  · funext y
    show V c main_v5 (((cfg0.win 6).blk t).view.emb y) = V c main_v5 y
    congr 1; funext a; apply Fin.ext
    match a with
    | ⟨0, _⟩ => show win0_6.index t (0 : Fin 1) * 64 + 1 * (y 0).val = (y 0).val; omega
  · funext y
    show V c main_v6 (((cfg0.win 7).blk t).view.emb y) = V c main_v6 y
    congr 1; funext a; apply Fin.ext
    match a with
    | ⟨0, _⟩ => show win0_7.index t (0 : Fin 1) * 64 + 1 * (y 0).val = (y 0).val; omega
  · intro r k i' e0 e1 e2
    show V c main_v0 (((cfg0.win 0).blk t).view.emb (ix3 0 r k)) = V c main_v0 i'
    congr 1; funext a; apply Fin.ext
    match a with
    | ⟨0, _⟩ => show win0_0.index t (0 : Fin 3) * 1 + 1 * 0 = (i' 0).val; omega
    | ⟨1, _⟩ => show win0_0.index t (1 : Fin 3) * 512 + 1 * r.val = (i' 1).val; omega
    | ⟨2, _⟩ => show win0_0.index t (2 : Fin 3) * 128 + 1 * k.val = (i' 2).val; omega
  · intro r k i' e0 e1 e2
    show V c main_v0 (((cfg0.win 1).blk t).view.emb (ix3 0 r k)) = V c main_v0 i'
    congr 1; funext a; apply Fin.ext
    match a with
    | ⟨0, _⟩ => show win0_1.index t (0 : Fin 3) * 1 + 1 * 0 = (i' 0).val; omega
    | ⟨1, _⟩ => show win0_1.index t (1 : Fin 3) * 2048 + 1 * r.val = (i' 1).val; omega
    | ⟨2, _⟩ => show win0_1.index t (2 : Fin 3) * 128 + 1 * k.val = (i' 2).val; omega

/-- An index of the array is in point `t`'s tile iff each coordinate is in the tile's range on its axis. -/
theorem mem_blk (t : Fin cfg0.N) (i : S4x2048x1024.Idx) :
    i ∈ ((cfg0.win 8).blk t).view.set ↔ ∀ a : Fin 3, win0_8.index t a * S1x512x128.size a ≤ (i a).val ∧ (i a).val < win0_8.index t a * S1x512x128.size a + S1x512x128.size a := by
  show i ∈ ((View.whole main_v10).slice (win0_8.rect t)).set ↔ _
  rw [View.set_slice_whole, Rect.mem_set_unit]
  exact Iff.rfl

/-- Every index of the array is in some point's tile: the point of batch `i 0`, row tile `i 1 / 512` and head pair `i 2 / 128`. -/
theorem cover (i : S4x2048x1024.Idx) : ∃ t : Fin cfg0.N, (cfg0.win 8).flush t = true ∧ i ∈ ((cfg0.win 8).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, by omega⟩ ⟨(i 1).val / 512, by omega⟩ ⟨(i 2).val / 128, by omega⟩
  have q0 : win0_8.index t (0 : Fin 3) = (i 0).val := congrFun ht 0
  have q1 : win0_8.index t (1 : Fin 3) = (i 1).val / 512 := congrFun ht 1
  have q2 : win0_8.index t (2 : Fin 3) = (i 2).val / 128 := congrFun ht 2
  refine ⟨t, flush0_8 t, ?_⟩
  rw [mem_blk]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 512 ≤ (i 1).val ∧ (i 1).val < win0_8.index t (1 : Fin 3) * 512 + 512; omega
  | ⟨2, _⟩ => show win0_8.index t (2 : Fin 3) * 128 ≤ (i 2).val ∧ (i 2).val < win0_8.index t (2 : Fin 3) * 128 + 128; omega

/-- The attention region's output array after the region: the attention function of the arrays it read. -/
theorem final0 (c : Dev nD) : (dat0 (F := Ideal) V c).arrAt 8 cfg0.N
    = Cert.Spec.attnG (V c main_v0) (V c main_v7) (V c main_v8) (V c main_v9) (V c main_v4) (V c main_v5) (V c main_v6) :=
  (dat0 (F := Ideal) V c).arrAt_eq_of_cover 8
    (Cert.Spec.attnG (V c main_v0) (V c main_v7) (V c main_v8) (V c main_v9) (V c main_v4) (V c main_v5) (V c main_v6))
    (fun t _ => flushed_eq V c t) cover

end Cert.KernelIdeal.Val0

end
-- ==== Proof.PayloadProj.lean ====
/-
  The output projection's block arithmetic over the extended reals.

  The projection kernel multiplies a 512x1024 block of rows by the transpose of the 1024x1024 output matrix and adds
  the 1024-vector to every row. Over the extended reals the changes of float format are the identity and the product
  accumulated into the zero matrix is the plain sum, so the stored block has at row r and column f the entry
    (sum over g < 1024 of x(r, g) * W(f, g)) + c(f).
-/
import proofs.«144325_j47253230190881_2_alg».proof.Proof.Gen.KernelIdeal.Skeleton
import proofs.«144325_j47253230190881_2_alg».proof.Proof.Spec
import proofs.«144325_j47253230190881_2_alg».proof.Proof.LibMatmulNT
import Idealize.ShloMosaic.Lib.ValueLayout

noncomputable section

open scoped BigOperators

namespace Cert.KernelIdeal.Payload

open Idealize.ShloMosaic Idealize.ShloMosaic.ValueIdx Cert.KernelIdeal

/-- The projection kernel's stored block at row `r`, column `f`. -/
theorem proj_apply (v0 : Vec Ideal S512x1024 .bf16) (v2 : Vec Ideal S1024x1024 .bf16) (v5 : Vec Ideal S1024 .f32)
    (r : Fin 512) (f : Fin 1024) :
    Gen.k1_pay1 (F := Ideal) v0 v2 v5 (ix2 r f)
      = (∑ g : Fin 1024, v0 (ix2 r g) * v2 (ix2 f g)) + v5 (ix1 f) := by
  unfold Gen.k1_pay1
  show FloatOps.addf _ _ = _
  rw [Ideal.addf_def]
  refine congrArg₂ (· + ·) ?_ ?_
  · rw [shapeCast_self, shapeCast_self]
    exact Cert.LibMatmulNT.matmul_nt_zero_apply (M := 512) (K := 1024) (N := 1024)
      dot_S512x1024_S1024x1024_S512x1024_1_1_0_0_n_n rfl none v0 v2 r f
  · refine (broadcastTo_1b_ab_apply _ _ r f).trans ?_
    exact shapeCast_a_1a_apply v5 _ (0 : Fin 1) f

end Cert.KernelIdeal.Payload

end
-- ==== Proof.Value1.lean ====
/-
  The output projection's result as one function of the arrays it reads.

  The region has sixteen points. Point t reads rows 512 t .. 512 t + 511 of the left matrix (a [8192, 1024] array),
  the whole [1024, 1024] right matrix and the whole 1024-vector, and writes rows 512 t .. 512 t + 511 of the result.
  The block it writes has at (r, f) the sum over g of left(512 t + r, g) * right(f, g), plus vector(f): that is the
  entry at (512 t + r, f) of one function of the three arrays, the same for every point. Row r of the result lies in
  the block of point r / 512, so the sixteen blocks cover the array and the array ends holding that function.
-/
import proofs.«144325_j47253230190881_2_alg».proof.Proof.Frame1
import proofs.«144325_j47253230190881_2_alg».proof.Proof.PayloadProj
import proofs.«144325_j47253230190881_2_alg».proof.Proof.Spec2
import Idealize.ShloMosaic.Lib.Pipeline.Value

noncomputable section

open scoped BigOperators

namespace Cert.KernelIdeal.Val1

open Cert.KernelIdeal Cert.KernelIdeal.Gen Cert.KernelIdeal.Fr Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a rank-2 whole-block rectangle, as a constant function. -/
theorem zero2 : (![0, 0] : Fin 2 → Nat) = fun _ => 0 := funext fun a => by fin_cases a <;> rfl
/-- The zero offset of a rank-1 whole-block rectangle, as a constant function. -/
theorem zero1 : (![0] : Fin 1 → Nat) = fun _ => 0 := funext fun a => by fin_cases a <;> rfl

/-- The four index maps, decided over the sixteen points: the left matrix's and the result's blocks are at (t, 0), the
    right matrix's and the vector's at the origin. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The stored block at an index of the block: row (y 0) of the left block against row (y 1) of the right matrix, plus
    entry (y 1) of the vector. -/
theorem block_entry (x0 : Vec Ideal S512x1024 .bf16) (x1 : Vec Ideal S1024x1024 .bf16) (x2 : Vec Ideal S1024 .f32)
    (y : S512x1024.Idx) :
    k1_pay1 (F := Ideal) x0 x1 x2 y = (∑ g : Fin 1024, x0 (ix2 (y 0) g) * x1 (ix2 (y 1) g)) + x2 (ix1 (y 1)) :=
  (congrArg (k1_pay1 (F := Ideal) x0 x1 x2) (eq_ix2 y)).trans (Payload.proj_apply x0 x1 x2 (y 0) (y 1))

/-- The left matrix's block at point t is rows 512 t .. 512 t + 511 of the array. -/
theorem rows_apply (c : Dev nD) (t : Fin cfg1.N) (x : S512x1024.Idx) (k : S8192x1024.Idx)
    (hk0 : (k 0).val = 512 * t.val + (x 0).val) (hk1 : (k 1).val = (x 1).val) :
    (iblk1 V c 0 t : Vec Ideal S512x1024 .bf16) x = (V c main_v12 : S8192x1024.Idx → EReal) k := by
  obtain ⟨e0, e1, -⟩ := index_facts t
  unfold iblk1
  rw [View.read_apply]
  show V c main_v12 _ = V c main_v12 _
  congr 1
  funext a
  apply Fin.ext
  match a with
  | ⟨0, _⟩ => show win1_0.index t 0 * 512 + 1 * (x 0).val = (k 0).val; rw [e0, hk0]; omega
  | ⟨1, _⟩ => show win1_0.index t 1 * 1024 + 1 * (x 1).val = (k 1).val; rw [e1, hk1]; omega

/-- The right matrix's block at every point is the whole array. -/
theorem weights_apply (c : Dev nD) (t : Fin cfg1.N) (x : S1024x1024.Idx) :
    (iblk1 V c 1 t : Vec Ideal S1024x1024 .bf16) x = (V c main_v11 : S1024x1024.Idx → EReal) x := by
  obtain ⟨-, -, e0, e1, -⟩ := index_facts t
  unfold iblk1
  rw [View.read_apply]
  show V c main_v11 _ = V c main_v11 _
  congr 1
  funext a
  apply Fin.ext
  match a with
  | ⟨0, _⟩ => show win1_1.index t 0 * 1024 + 1 * (x 0).val = (x 0).val; rw [e0]; omega
  | ⟨1, _⟩ => show win1_1.index t 1 * 1024 + 1 * (x 1).val = (x 1).val; rw [e1]; omega

/-- The vector's block at every point is the whole vector. -/
theorem bias_apply (c : Dev nD) (t : Fin cfg1.N) (x : S1024.Idx) :
    (iblk1 V c 2 t : Vec Ideal S1024 .f32) x = (V c main_arg4 : S1024.Idx → EReal) x := by
  obtain ⟨-, -, -, -, e0, -⟩ := index_facts t
  unfold iblk1
  rw [View.read_apply]
  show V c main_arg4 _ = V c main_arg4 _
  congr 1
  funext a
  apply Fin.ext
  match a with
  | ⟨0, _⟩ => show win1_2.index t 0 * 1024 + 1 * (x 0).val = (x 0).val; rw [e0]; omega

/-- What point t writes back is block t of the product-plus-vector function of the three arrays. -/
theorem flushed_eq (c : Dev nD) (t : Fin cfg1.N) :
    (dat1 (F := Ideal) V c).flushed 3 t
      = ((cfg1.win 3).blk t).view.read (Elt Ideal) (Cert.Spec.projG (V c main_v12) (V c main_v11) (V c main_arg4)) := by
  show (cfg1.win 3).cut (grid1.coords t) ((dat1 V c).after 3 t) = _
  rw [after1_3]
  unfold out1_3
  rw [View.canon_unit_zero zero2]
  simp only [View.ld_unit_zero (S := S512x1024) zero2, View.ld_unit_zero (S := S1024x1024) zero2, View.ld_unit_zero (S := S1024) zero1]
  obtain ⟨-, -, -, -, -, e0, e1⟩ := index_facts t
  funext j
  show k1_pay1 (F := Ideal) (iblk1 V c 0 t) (iblk1 V c 1 t) (iblk1 V c 2 t) j
    = Cert.Spec.projG (V c main_v12) (V c main_v11) (V c main_arg4) (((cfg1.win 3).blk t).view.emb j)
  refine (block_entry (iblk1 V c 0 t) (iblk1 V c 1 t) (iblk1 V c 2 t) j).trans ?_
  have h0 : ((((cfg1.win 3).blk t).view.emb j) 0).val = 512 * t.val + (j 0).val := by
    show win1_3.index t 0 * 512 + 1 * (j 0).val = _; rw [e0]; omega
  have h1 : ((((cfg1.win 3).blk t).view.emb j) 1).val = (j 1).val := by
    show win1_3.index t 1 * 1024 + 1 * (j 1).val = _; rw [e1]; omega
  have h1' : (((cfg1.win 3).blk t).view.emb j) 1 = j 1 := Fin.ext h1
  unfold Cert.Spec.projG
  refine congrArg₂ (· + ·) (Finset.sum_congr rfl fun g _ => congrArg₂ (· * ·) ?_ ?_) ?_
  · exact rows_apply V c t _ _ h0 rfl
  · rw [h1']; exact weights_apply V c t _
  · rw [h1']; exact bias_apply V c t _

/-- An index of the result lies in point t's block iff each coordinate lies in the block's range on its axis. -/
theorem mem_blk (t : Fin cfg1.N) (i : S8192x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v13).slice (win1_3.rect t)).set ↔ _
  rw [View.set_slice_whole, Rect.mem_set_unit]
  exact Iff.rfl

/-- Every index of the result lies in some point's block: row r in the block of point r / 512. -/
theorem covered (i : S8192x1024.Idx) :
    ∃ t : Fin cfg1.N, (cfg1.win 3).flush t = true ∧ i ∈ ((cfg1.win 3).blk t).view.set := by
  have hi0 : (i 0).val < 8192 := (i 0).isLt
  have hi1 : (i 1).val < 1024 := (i 1).isLt
  have hN : grid1.N = 16 := N_1
  let t : Fin cfg1.N := ⟨(i 0).val / 512, by show (i 0).val / 512 < grid1.N; rw [hN]; omega⟩
  obtain ⟨-, -, -, -, -, e0, e1⟩ := index_facts t
  have ht : t.val = (i 0).val / 512 := rfl
  refine ⟨t, flush1_3 t, ?_⟩
  rw [mem_blk]
  intro a
  match a with
  | ⟨0, _⟩ => show win1_3.index t 0 * 512 ≤ (i 0).val ∧ (i 0).val < win1_3.index t 0 * 512 + 512; rw [e0, ht]; omega
  | ⟨1, _⟩ => show win1_3.index t 1 * 1024 ≤ (i 1).val ∧ (i 1).val < win1_3.index t 1 * 1024 + 1024; rw [e1]; omega

/-- After the region the result array is the product-plus-vector function of the arrays the region was entered with. -/
theorem final1 (c : Dev nD) :
    (dat1 (F := Ideal) V c).arrAt 3 cfg1.N = Cert.Spec.projG (V c main_v12) (V c main_v11) (V c main_arg4) :=
  (dat1 (F := Ideal) V c).arrAt_eq_of_cover 3 (Cert.Spec.projG (V c main_v12) (V c main_v11) (V c main_arg4))
    (fun t _ => flushed_eq V c t) covered

end Cert.KernelIdeal.Val1

end
-- ==== Proof.RunValue.lean ====
/-
  The result buffer at the end of the run is the program's value of its arguments.

  Reading the last valuation back through the items: the last host stretch re-lays the projection region's output;
  that output is the projection of the second stretch's buffers, which are the rounded output weights, the output
  vector and the re-laid attention output; the attention output is the attention of the first stretch's buffers, which
  are the rounded input and the rounded bands of the shared projection.
-/
import proofs.«144325_j47253230190881_2_alg».proof.Proof.Run
import proofs.«144325_j47253230190881_2_alg».proof.Proof.KernelValue
import proofs.«144325_j47253230190881_2_alg».proof.Proof.Value0
import proofs.«144325_j47253230190881_2_alg».proof.Proof.Value1
import Idealize.ShloMosaic.Lib.StableHlo.Run

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ)

/-- The first stretch's buffers. -/
theorem V1_v0 (c : Dev nD) : (V1 m c main_v0 : S4x2048x1024.Idx → EReal)
    = truncf (F := Ideal) .bf16 (m ((c : Thread nD τ).loc main_arg0)) bitsLt_bf16_f32 := by
  show StableHlo.after hostOps0 (fun b => m (c, b)) (Proc.devRef .tc main_v0) = _
  after_results
theorem V1_v7 (c : Dev nD) : (V1 m c main_v7 : S64x64.Idx → EReal)
    = truncf (F := Ideal) .bf16 (extractStridedSlice S64x64 ![0, 0] (m ((c : Thread nD τ).loc main_arg1)) slices_S192x64_S64x64_0_0) bitsLt_bf16_f32 := by
  show StableHlo.after hostOps0 (fun b => m (c, b)) (Proc.devRef .tc main_v7) = _
  after_results
theorem V1_v8 (c : Dev nD) : (V1 m c main_v8 : S64x64.Idx → EReal)
    = truncf (F := Ideal) .bf16 (extractStridedSlice S64x64 ![64, 0] (m ((c : Thread nD τ).loc main_arg1)) slices_S192x64_S64x64_64_0) bitsLt_bf16_f32 := by
  show StableHlo.after hostOps0 (fun b => m (c, b)) (Proc.devRef .tc main_v8) = _
  after_results
theorem V1_v9 (c : Dev nD) : (V1 m c main_v9 : S64x64.Idx → EReal)
    = truncf (F := Ideal) .bf16 (extractStridedSlice S64x64 ![128, 0] (m ((c : Thread nD τ).loc main_arg1)) slices_S192x64_S64x64_128_0) bitsLt_bf16_f32 := by
  show StableHlo.after hostOps0 (fun b => m (c, b)) (Proc.devRef .tc main_v9) = _
  after_results
theorem V1_v4 (c : Dev nD) : (V1 m c main_v4 : S64.Idx → EReal)
    = extractStridedSlice S64 ![0] (m ((c : Thread nD τ).loc main_arg2)) slices_S192_S64_0 := by
  show StableHlo.after hostOps0 (fun b => m (c, b)) (Proc.devRef .tc main_v4) = _
  after_results
theorem V1_v5 (c : Dev nD) : (V1 m c main_v5 : S64.Idx → EReal)
    = extractStridedSlice S64 ![64] (m ((c : Thread nD τ).loc main_arg2)) slices_S192_S64_64 := by
  show StableHlo.after hostOps0 (fun b => m (c, b)) (Proc.devRef .tc main_v5) = _
  after_results
theorem V1_v6 (c : Dev nD) : (V1 m c main_v6 : S64.Idx → EReal)
    = extractStridedSlice S64 ![128] (m ((c : Thread nD τ).loc main_arg2)) slices_S192_S64_128 := by
  show StableHlo.after hostOps0 (fun b => m (c, b)) (Proc.devRef .tc main_v6) = _
  after_results
/-- The first stretch writes neither the output weights nor the output vector. -/
theorem W1_arg3 (c : Dev nD) : W1 m c (Proc.devRef .tc main_arg3) = m ((c : Thread nD τ).loc main_arg3) := by
  show StableHlo.after hostOps0 (fun b => m (c, b)) (Proc.devRef .tc main_arg3) = _
  after_results
theorem W1_arg4 (c : Dev nD) : W1 m c (Proc.devRef .tc main_arg4) = m ((c : Thread nD τ).loc main_arg4) := by
  show StableHlo.after hostOps0 (fun b => m (c, b)) (Proc.devRef .tc main_arg4) = _
  after_results

/-- The second stretch's buffers, from the attention region's exit valuation. -/
theorem V3_v12 (c : Dev nD) : (V3 m c main_v12 : S8192x1024.Idx → EReal)
    = shapeCast S8192x1024 (o2 m c : S4x2048x1024.Idx → EReal) shapeCasts_S4x2048x1024_S8192x1024 := by
  show StableHlo.after hostOps1 (W2 m c) (Proc.devRef .tc main_v12) = _
  after_results
  rw [W2_out]; rfl
theorem V3_v11 (c : Dev nD) : (V3 m c main_v11 : S1024x1024.Idx → EReal)
    = truncf (F := Ideal) .bf16 (m ((c : Thread nD τ).loc main_arg3)) bitsLt_bf16_f32 := by
  show StableHlo.after hostOps1 (W2 m c) (Proc.devRef .tc main_v11) = _
  after_results
  rw [W2_of_ne m c main_arg3 (by decide), W1_arg3]
theorem V3_arg4 (c : Dev nD) : V3 m c main_arg4 = m ((c : Thread nD τ).loc main_arg4) := by
  show StableHlo.after hostOps1 (W2 m c) (Proc.devRef .tc main_arg4) = _
  after_results
  rw [W2_of_ne m c main_arg4 (by decide), W1_arg4]

/-- The result buffer at the program's end. -/
theorem W5_value (c : Dev nD) : (W5 m c (Proc.devRef .tc main_v14) : S4x2048x1024.Idx → EReal)
    = KV.value (m ((c : Thread nD τ).loc main_arg0)) (m ((c : Thread nD τ).loc main_arg1)) (m ((c : Thread nD τ).loc main_arg2))
        (m ((c : Thread nD τ).loc main_arg3)) (m ((c : Thread nD τ).loc main_arg4)) := by
  have e4 : (W4 m c (Proc.devRef .tc main_v13) : S8192x1024.Idx → EReal)
      = Cert.Spec.projG (shapeCast S8192x1024 (KV.attnValue (m ((c : Thread nD τ).loc main_arg0)) (m ((c : Thread nD τ).loc main_arg1))
          (m ((c : Thread nD τ).loc main_arg2))) shapeCasts_S4x2048x1024_S8192x1024)
          (truncf (F := Ideal) .bf16 (m ((c : Thread nD τ).loc main_arg3)) bitsLt_bf16_f32) (m ((c : Thread nD τ).loc main_arg4)) := by
    rw [W4_out]; unfold o4
    rw [Val1.final1 (V3 m) c, V3_v12, V3_v11, V3_arg4]
    unfold o2
    rw [Val0.final0 (V1 m) c, V1_v0, V1_v7, V1_v8, V1_v9, V1_v4, V1_v5, V1_v6]
    rfl
  show StableHlo.after hostOps2 (W4 m c) (Proc.devRef .tc main_v14) = _
  after_results
  rw [e4]; rfl

end Cert.KernelIdeal.Fr

end
-- ==== Proof.Bridge.lean ====
/-
  The program's value is the specification.

  The program's value is built from whole-array operations: the input and the weights rounded to bf16 (the identity
  over the extended reals), the shared 192-row matrix and 192-vector cut into their three 64-row bands, the attention
  result re-laid from [4, 2048, 1024] to [8192, 1024], the output projection, and the result re-laid back. Read at an
  index (b, t, f): the outer re-lay reads row b * 2048 + t of the projection's result; the projection's sum over
  g < 1024 reads the inner re-lay at that row and column g, which is the attention result at (b, t, g); row e of the
  band cut at offset o is row o + e of the shared matrix, and likewise for the vector; so the attention result at
  (b, t, g) is the specification's head g / 64 at channel g % 64, and the whole is the specification's value at
  (b, t, f).
-/
import proofs.«144325_j47253230190881_2_alg».proof.Proof.KernelValue
import proofs.«144325_j47253230190881_2_alg».proof.Proof.LibRows
import Idealize.ShloMosaic.Lib.ValueLayout

noncomputable section

open scoped BigOperators

namespace Cert.KernelIdeal.KV

open Idealize.ShloMosaic Idealize.ShloMosaic.ValueIdx Cert.KernelIdeal Cert.KernelIdeal.Gen

/-- The head formula depends only on the values of its arguments. -/
theorem head_congr {rq rq' : Fin 64 → EReal} {rk rk' : Fin 2048 → Fin 64 → EReal} {Wq Wq' Wk Wk' Wv Wv' : Fin 64 → Fin 64 → EReal}
    {cq cq' ck ck' cv cv' : Fin 64 → EReal} {e e' : Fin 64} (h1 : rq = rq') (h2 : rk = rk') (h3 : Wq = Wq') (h4 : cq = cq')
    (h5 : Wk = Wk') (h6 : ck = ck') (h7 : Wv = Wv') (h8 : cv = cv') (h9 : e = e') :
    Cert.Spec.head rq rk Wq cq Wk ck Wv cv e = Cert.Spec.head rq' rk' Wq' cq' Wk' ck' Wv' cv' e' := by
  subst h1 h2 h3 h4 h5 h6 h7 h8 h9
  rfl

/-- Row `e` of the 64-row band of the shared matrix cut at row offset `o` is its row `o + e`. -/
theorem band_rows (W : FVec Ideal S192x64 .f32) (o : Nat) (ho : o + 64 ≤ 192) (h : S192x64.Slices ![o, 0] S64x64) :
    (fun (e d : Fin 64) => truncf (F := Ideal) .bf16 (extractStridedSlice S64x64 ![o, 0] W h) bitsLt_bf16_f32 (ix2 e d))
      = fun e d => W (ix2 (Cert.Spec.band o ho e) d) :=
  funext fun e => funext fun d => slice2_axis0_apply o W h e d (Cert.Spec.band o ho e) rfl

/-- Entry `e` of the 64-entry band of the shared vector cut at offset `o` is its entry `o + e`. -/
theorem band_entries (c : FVec Ideal S192 .f32) (o : Nat) (ho : o + 64 ≤ 192) (h : S192.Slices ![o] S64) :
    (fun e : Fin 64 => extractStridedSlice S64 ![o] c h (ix1 e)) = fun e => c (ix1 (Cert.Spec.band o ho e)) :=
  funext fun e => extractStridedSlice_apply ![o] c h (ix1 e) (ix1 (Cert.Spec.band o ho e)) (fun a => by
    match a with
    | ⟨0, _⟩ => rfl)

/-- The attention region's result at `(b, t, g)`: head `g / 64` at channel `g % 64`. -/
theorem attnValue_apply (x : FVec Ideal S4x2048x1024 .f32) (W : FVec Ideal S192x64 .f32) (c : FVec Ideal S192 .f32)
    (b : Fin 4) (t : Fin 2048) (g : Fin 1024) :
    attnValue x W c (ix3 b t g) = Cert.Spec.attnFlat x W c b t g := by
  unfold attnValue Cert.Spec.attnG Cert.Spec.attnFlat Cert.Spec.attn
  exact head_congr rfl rfl (band_rows W 0 _ _) (band_entries c 0 _ _) (band_rows W 64 _ _) (band_entries c 64 _ _)
    (band_rows W 128 _ _) (band_entries c 128 _ _) rfl

/-- The program's value at `(b, t, f)`. -/
theorem value_apply (x : FVec Ideal S4x2048x1024 .f32) (W : FVec Ideal S192x64 .f32) (c : FVec Ideal S192 .f32)
    (Wp : FVec Ideal S1024x1024 .f32) (cp : FVec Ideal S1024 .f32) (b : Fin 4) (t : Fin 2048) (f : Fin 1024) :
    value x W c Wp cp (ix3 b t f) = Cert.Spec.outAt x W c Wp cp b t f := by
  have hr : b.val * 2048 + t.val < 8192 := by omega
  unfold value
  refine (Cert.LibRows.unflatten_rows_apply _ _ b t f ⟨b.val * 2048 + t.val, hr⟩ rfl).trans ?_
  unfold Cert.Spec.projG Cert.Spec.outAt
  refine congrArg₂ (· + ·) (Finset.sum_congr rfl fun g _ => congrArg₂ (· * ·) ?_ rfl) rfl
  refine (Cert.LibRows.flatten_rows_apply _ _ b t g ⟨b.val * 2048 + t.val, hr⟩ rfl).trans ?_
  exact attnValue_apply x W c b t g

/-- The program's value is the specification's result. -/
theorem value_eq (x : FVec Ideal S4x2048x1024 .f32) (W : FVec Ideal S192x64 .f32) (c : FVec Ideal S192 .f32)
    (Wp : FVec Ideal S1024x1024 .f32) (cp : FVec Ideal S1024 .f32) :
    value x W c Wp cp = Cert.Spec.out x W c Wp cp :=
  funext fun i => (congrArg (value x W c Wp cp) (eq_ix3 i)).trans (value_apply x W c Wp cp (i 0) (i 1) (i 2))

end Cert.KernelIdeal.KV

end
-- ==== Proof.RefRows.lean ====
/-
  The rows of the shared query/key/value map, as the reference computes them.

  The reference splits the 1024 columns of x into sixteen heads of sixty-four channels (a reshape to
  [4, 2048, 16, 64] followed by a swap of the two middle axes), multiplies each 64-vector by the transpose of the
  192x64 matrix W and adds the 192-vector c. Read at batch b, head h, position t and output row e < 192 this is
      (sum over d < 64 of x[b, t, 64 h + d] * W[e, d]) + c[e];
  the column 64 h + d appears because the row-major position of (b, t, h, d) in [4, 2048, 16, 64] is the row-major
  position of (b, t, 64 h + d) in [4, 2048, 1024]. The three slices of width 64 then select the rows e, 64 + e and
  128 + e of W and c: the query, key and value maps of the specification.
-/
import proofs.«144325_j47253230190881_2_alg».proof.Proof.Gen.ReferenceIdeal.Read
import proofs.«144325_j47253230190881_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The entry of x that the reshape and the swap of axes put at (b, h, t, d) is x[b, t, 64 h + d]. -/
theorem split_heads_idx (b : Fin 4) (h : Fin 16) (t : Fin 2048) (d : Fin 64) :
    idx_main_v0 (idx_main_v1 (ix4 b h t d)) = ix3 b t (Spec.chan h d) := by
  funext a
  apply Fin.ext
  have hb := b.isLt; have hh := h.isLt; have ht := t.isLt; have hd := d.isLt
  match a with
  | ⟨0, _⟩ => show ((((b.val * 2048 + t.val) * 16 + h.val) * 64 + d.val) / 2097152 = b.val); omega
  | ⟨1, _⟩ => show ((((b.val * 2048 + t.val) * 16 + h.val) * 64 + d.val) / 1024 % 2048 = t.val); omega
  | ⟨2, _⟩ => show ((((b.val * 2048 + t.val) * 16 + h.val) * 64 + d.val) % 1024 = 64 * h.val + d.val); omega

/-- The head-split input at (b, h, t, d). -/
theorem heads_apply (x : FVec Ideal S4x2048x1024 .f32) (b : Fin 4) (h : Fin 16) (t : Fin 2048) (d : Fin 64) :
    val_main_v1 (F := Ideal) x (ix4 b h t d) = x (ix3 b t (Spec.chan h d)) := by
  rw [val_main_v1_apply, val_main_v0_apply, split_heads_idx]

/-- The left operand's index of the first product at (b, h, t, e), contraction coordinate d. -/
theorem rows_lidx (b : Fin 4) (h : Fin 16) (t : Fin 2048) (e : Fin 192) (d : Fin 64) :
    lidx_main_v2 (ix4 b h t e) d = ix4 b h t d :=
  funext fun a => Fin.ext (by match a with | ⟨0, _⟩ => rfl | ⟨1, _⟩ => rfl | ⟨2, _⟩ => rfl | ⟨3, _⟩ => rfl)

/-- The right operand's index of the first product at (b, h, t, e), contraction coordinate d. -/
theorem rows_ridx (b : Fin 4) (h : Fin 16) (t : Fin 2048) (e : Fin 192) (d : Fin 64) :
    ridx_main_v2 (ix4 b h t e) d = ix2 e d :=
  funext fun a => Fin.ext (by match a with | ⟨0, _⟩ => rfl | ⟨1, _⟩ => rfl)

/-- The broadcast vector c at (b, h, t, e) is c[e]. -/
theorem rows_bias_idx (b : Fin 4) (h : Fin 16) (t : Fin 2048) (e : Fin 192) :
    idx_main_v3 (idx_main_v4 (ix4 b h t e)) = ix1 e :=
  funext fun a => Fin.ext (by match a with | ⟨0, _⟩ => rfl)

/-- The 192 rows of the shared map at (b, h, t, e). -/
theorem rows_apply (x : FVec Ideal S4x2048x1024 .f32) (W : FVec Ideal S192x64 .f32) (c : FVec Ideal S192 .f32)
    (b : Fin 4) (h : Fin 16) (t : Fin 2048) (e : Fin 192) :
    val_main_v5 (F := Ideal) x W c (ix4 b h t e)
      = (∑ d : Fin 64, x (ix3 b t (Spec.chan h d)) * W (ix2 e d)) + c (ix1 e) := by
  rw [val_main_v5_apply, val_main_v2_apply, val_main_v4_apply, val_main_v3_apply, rows_bias_idx, Ideal.addf_def]
  refine congrArg (· + c (ix1 e)) (Finset.sum_congr rfl fun d _ => ?_)
  rw [rows_lidx, rows_ridx, heads_apply]

/-- The index the slice starting at column o reads at (b, h, t, e), for the three offsets. -/
theorem slice0_idx (b : Fin 4) (h : Fin 16) (t : Fin 2048) (e : Fin 64) :
    idx_main_v6 (ix4 b h t e) = ix4 b h t (Spec.band 0 (by decide) e) :=
  funext fun a => Fin.ext (by
    match a with | ⟨0, _⟩ => rfl | ⟨1, _⟩ => rfl | ⟨2, _⟩ => rfl | ⟨3, _⟩ => exact (Nat.zero_add _).symm)
theorem slice64_idx (b : Fin 4) (h : Fin 16) (t : Fin 2048) (e : Fin 64) :
    idx_main_v7 (ix4 b h t e) = ix4 b h t (Spec.band 64 (by decide) e) :=
  funext fun a => Fin.ext (by match a with | ⟨0, _⟩ => rfl | ⟨1, _⟩ => rfl | ⟨2, _⟩ => rfl | ⟨3, _⟩ => rfl)
theorem slice128_idx (b : Fin 4) (h : Fin 16) (t : Fin 2048) (e : Fin 64) :
    idx_main_v8 (ix4 b h t e) = ix4 b h t (Spec.band 128 (by decide) e) :=
  funext fun a => Fin.ext (by match a with | ⟨0, _⟩ => rfl | ⟨1, _⟩ => rfl | ⟨2, _⟩ => rfl | ⟨3, _⟩ => rfl)

variable (x : FVec Ideal S4x2048x1024 .f32) (W : FVec Ideal S192x64 .f32) (c : FVec Ideal S192 .f32)

/-- The input row of batch b, position t, head h. -/
abbrev row (b : Fin 4) (h : Fin 16) (t : Fin 2048) : Fin 64 → EReal := fun d => x (ix3 b t (Spec.chan h d))
/-- The 64x64 band of W starting at row o, and the matching band of c. -/
abbrev Wb (o : Nat) (ho : o + 64 ≤ 192) : Fin 64 → Fin 64 → EReal := fun e d => W (ix2 (Spec.band o ho e) d)
abbrev cb (o : Nat) (ho : o + 64 ≤ 192) : Fin 64 → EReal := fun e => c (ix1 (Spec.band o ho e))

/-- The query rows. -/
theorem q_apply (b : Fin 4) (h : Fin 16) (t : Fin 2048) (e : Fin 64) :
    val_main_v6 (F := Ideal) x W c (ix4 b h t e)
      = Spec.lin (row x b h t) (Wb W 0 (by decide)) (cb c 0 (by decide)) e := by
  rw [val_main_v6_apply, slice0_idx, rows_apply]; rfl
/-- The key rows. -/
theorem k_apply (b : Fin 4) (h : Fin 16) (t : Fin 2048) (e : Fin 64) :
    val_main_v7 (F := Ideal) x W c (ix4 b h t e)
      = Spec.lin (row x b h t) (Wb W 64 (by decide)) (cb c 64 (by decide)) e := by
  rw [val_main_v7_apply, slice64_idx, rows_apply]; rfl
/-- The value rows. -/
theorem v_apply (b : Fin 4) (h : Fin 16) (t : Fin 2048) (e : Fin 64) :
    val_main_v8 (F := Ideal) x W c (ix4 b h t e)
      = Spec.lin (row x b h t) (Wb W 128 (by decide)) (cb c 128 (by decide)) e := by
  rw [val_main_v8_apply, slice128_idx, rows_apply]; rfl

end Cert.ReferenceIdeal.RefValue

end
-- ==== Proof.LibRowMax4.lean ====
/-
  The largest entry along the last axis of a rank-4 array, read at the remaining three coordinates.

  The host takes the maximum over the last axis of an [a, b, c, e] array by a reduce whose body is the maximum, from an
  initial value held in a rank-0 array. Over the extended reals this is, at (p, q, r), the fold of `max` from the
  starting value over the e entries (p, q, r, k), in any order. Generic in the four extents; the witness that names
  the inserted coordinate is an argument.
-/
import Idealize.ShloMosaic.PureOps.Ideal.Laws
import Idealize.ShloMosaic.Lib.ValueIdx

noncomputable section

namespace Cert.LibRowMax4

open Idealize.ShloMosaic Idealize.ShloMosaic.ValueIdx

/-- The index (p, q, r) with the last coordinate k put back is (p, q, r, k). -/
theorem lift_last4 {a b c e : Nat} (h : (⟨4, ![a, b, c, e]⟩ : Shape).Reduces [3] ⟨3, ![a, b, c]⟩)
    (p : Fin a) (q : Fin b) (r : Fin c) (k : Fin e) :
    h.lift (ix3 p q r) k = ix4 p q r k :=
  funext fun ax => Fin.ext (by
    match ax with
    | ⟨0, _⟩ => rfl
    | ⟨1, _⟩ => rfl
    | ⟨2, _⟩ => rfl
    | ⟨3, _⟩ => rfl)

/-- The host's reduce with the maximum as its body over the last axis of [a, b, c, e], from the initial value
    `init`, at (p, q, r). -/
theorem host_max_last4_apply {a b c e : Nat} {u : Shape} (x : FVec Ideal ⟨4, ![a, b, c, e]⟩ .f32)
    (init : FVec Ideal u .f32)
    (h' : (⟨4, ![a, b, c, e]⟩ : Shape).ReducesTo [3] ⟨3, ![a, b, c]⟩)
    (h : (⟨4, ![a, b, c, e]⟩ : Shape).Reduces [3] ⟨3, ![a, b, c]⟩)
    (hu : 0 < u.numel) (p : Fin a) (q : Fin b) (r : Fin c) :
    Host.reduce (FloatOps.maximumf (F := Ideal) (φ := .f32)) x init h' hu (ix3 p q r)
      = (Finset.univ : Finset (Fin e)).fold max (init (Shape.Idx.first hu)) (fun k => x (ix4 p q r k)) := by
  refine (Host.reduce_eq_fold_single (FloatOps.maximumf (F := Ideal) (φ := .f32)) x init h' h hu (ix3 p q r)).trans ?_
  exact Finset.fold_congr fun k _ => congrArg x (lift_last4 h p q r k)

end Cert.LibRowMax4

end
-- ==== Proof.RefScores.lean ====
/-
  The scores, their largest entry, the weights and one head's output, as the reference computes them.

  The scale. The reference divides the word 1.0 by the square root of the word 64.0. The word 0x42800000 has sign 0,
  exponent field 133 and an empty significand field: it is 2^6 = 64, whose square root is 8; the word 0x3F800000 is
  2^0 = 1; and 1 / 8 is 2^-3, the word 0x3E000000 (exponent field 124). All three are exact powers of two.

  The scores of position t of head h of batch b against the positions j are the products of the query row of t with
  the key rows of j, times the scale. Their largest entry is a fold of max from minus infinity; the reference then
  takes the maximum of that with minus infinity again, which changes nothing because a fold of max from a value is
  at least that value. The weights are exp(score - largest) divided by the sum of these exponentials (the sum starts
  from the zero word, which is the number 0), and the head's output at channel e is the sum over j of weight_j times
  the value row of j at e.
-/
import proofs.«144325_j47253230190881_2_alg».proof.Proof.RefRows
import proofs.«144325_j47253230190881_2_alg».proof.Proof.LibRowMax4

noncomputable section

namespace Cert.ReferenceIdeal.RefValue

open Cert.ReferenceIdeal Cert.ReferenceIdeal.Gen Cert.ReferenceIdeal.Read Idealize.ShloMosaic Idealize.ShloMosaic.ValueIdx

/-- The float word `0x42800000` denotes the real number 64. -/
theorem ofBits_sixtyfour : Ideal.ofBits .f32 0x42800000#32 = ((64 : ℝ) : EReal) := by
  simp [Ideal.ofBits, Ideal.ieee, -EReal.coe_mul]; norm_num

/-- The float word `0x3F800000` denotes the real number 1. -/
theorem ofBits_one : Ideal.ofBits .f32 0x3F800000#32 = ((1 : ℝ) : EReal) := by
  simp [Ideal.ofBits, Ideal.ieee, -EReal.coe_mul]; norm_num

/-- The float word `0x3E000000` denotes the real number 1/8. -/
theorem ofBits_eighth : Ideal.ofBits .f32 0x3E000000#32 = ((1 / 8 : ℝ) : EReal) := by
  simp [Ideal.ofBits, Ideal.ieee, -EReal.coe_mul]; norm_num

/-- One over the square root of sixty-four is one eighth, as words. -/
theorem scale_eq :
    Ideal.div (Ideal.ofBits .f32 0x3F800000#32) (Ideal.sqrt (Ideal.ofBits .f32 0x42800000#32))
      = Ideal.ofBits .f32 0x3E000000#32 := by
  have h8 : Real.sqrt 64 = 8 := by
    rw [show (64 : ℝ) = 8 ^ 2 by norm_num]; exact Real.sqrt_sq (by norm_num)
  rw [ofBits_sixtyfour, ofBits_one, ofBits_eighth, Ideal.sqrt_coe, if_neg (by norm_num), h8,
    Ideal.div_coe (by norm_num), ← EReal.coe_mul]
  norm_num

/-- The broadcast scale at any index is the word one eighth. -/
theorem scale_apply (i : S4x16x2048x2048.Idx) :
    val_main_v12 (F := Ideal) i = Ideal.ofBits .f32 0x3E000000#32 := by
  rw [val_main_v12_apply, val_main_v10_apply, val_main_cst_0_apply, val_main_v9_apply, val_main_cst_apply,
    Ideal.hostDivf_def, Ideal.hostUnary_sqrt_def, Ideal.ofBits_def, Ideal.ofBits_def]
  exact scale_eq

variable (x : FVec Ideal S4x2048x1024 .f32) (W : FVec Ideal S192x64 .f32) (c : FVec Ideal S192 .f32)

/-- The scores of (b, h, t), a function of the key position. -/
abbrev scores (b : Fin 4) (h : Fin 16) (t : Fin 2048) : Fin 2048 → EReal :=
  Spec.score (row x b h t) (fun j => row x b h j) (Wb W 0 (by decide)) (cb c 0 (by decide))
    (Wb W 64 (by decide)) (cb c 64 (by decide))

theorem scores_lidx (b : Fin 4) (h : Fin 16) (t : Fin 2048) (j : Fin 2048) (e : Fin 64) :
    lidx_main_v11 (ix4 b h t j) e = ix4 b h t e :=
  funext fun a => Fin.ext (by match a with | ⟨0, _⟩ => rfl | ⟨1, _⟩ => rfl | ⟨2, _⟩ => rfl | ⟨3, _⟩ => rfl)

theorem scores_ridx (b : Fin 4) (h : Fin 16) (t : Fin 2048) (j : Fin 2048) (e : Fin 64) :
    ridx_main_v11 (ix4 b h t j) e = ix4 b h j e :=
  funext fun a => Fin.ext (by match a with | ⟨0, _⟩ => rfl | ⟨1, _⟩ => rfl | ⟨2, _⟩ => rfl | ⟨3, _⟩ => rfl)

/-- The scaled scores at (b, h, t, j). -/
theorem scores_apply (b : Fin 4) (h : Fin 16) (t : Fin 2048) (j : Fin 2048) :
    val_main_v13 (F := Ideal) x W c (ix4 b h t j) = scores x W c b h t j := by
  rw [val_main_v13_apply, val_main_v11_apply, scale_apply, Ideal.mulf_def]
  refine congrArg (· * Ideal.ofBits .f32 0x3E000000#32) (Finset.sum_congr rfl fun e _ => ?_)
  rw [scores_lidx, scores_ridx, q_apply, k_apply]

/-- The largest score of the row (b, h, t): the reduce from minus infinity, and the maximum with minus infinity
    after it. -/
theorem top_apply (b : Fin 4) (h : Fin 16) (t : Fin 2048) :
    val_main_v16 (F := Ideal) x W c (ix3 b h t) = Spec.top (scores x W c b h t) := by
  have hred : val_main_v14 (F := Ideal) x W c (ix3 b h t) = Spec.top (scores x W c b h t) := by
    unfold val_main_v14
    refine (Cert.LibRowMax4.host_max_last4_apply (val_main_v13 (F := Ideal) x W c) (val_main_cst_1 (F := Ideal))
      reducesTo_S4x16x2048x2048_S4x16x2048_d3 (by decide) h_S_ b h t).trans ?_
    unfold Spec.top
    rw [val_main_cst_1_apply, Ideal.ofBits_def]
    exact Finset.fold_congr fun j _ => scores_apply x W c b h t j
  rw [val_main_v16_apply, val_main_v15_apply, val_main_cst_2_apply, Ideal.ofBits_def, Ideal.maximumf_def, hred]
  exact max_eq_right ((Finset.le_fold_max _).mpr (Or.inl le_rfl))

theorem top_bcast_idx (b : Fin 4) (h : Fin 16) (t : Fin 2048) (j : Fin 2048) :
    idx_main_v17 (idx_main_v18 (ix4 b h t j)) = ix3 b h t :=
  funext fun a => Fin.ext (by match a with | ⟨0, _⟩ => rfl | ⟨1, _⟩ => rfl | ⟨2, _⟩ => rfl)

/-- The exponentials exp(score - largest) at (b, h, t, j). -/
theorem exps_apply (b : Fin 4) (h : Fin 16) (t : Fin 2048) (j : Fin 2048) :
    val_main_v20 (F := Ideal) x W c (ix4 b h t j)
      = Ideal.exp (scores x W c b h t j - Spec.top (scores x W c b h t)) := by
  rw [val_main_v20_apply, val_main_v19_apply, val_main_v18_apply, val_main_v17_apply, top_bcast_idx, top_apply,
    scores_apply, Ideal.hostUnary_exp_def, Ideal.subf_def]

theorem sum_idx (b : Fin 4) (h : Fin 16) (t : Fin 2048) (j : Fin 2048) :
    idx_main_v21 (ix3 b h t) j = ix4 b h t j :=
  funext fun a => Fin.ext (by match a with | ⟨0, _⟩ => rfl | ⟨1, _⟩ => rfl | ⟨2, _⟩ => rfl | ⟨3, _⟩ => rfl)

/-- The sum of the exponentials of the row (b, h, t). -/
theorem sums_apply (b : Fin 4) (h : Fin 16) (t : Fin 2048) :
    val_main_v21 (F := Ideal) x W c (ix3 b h t)
      = ∑ j' : Fin 2048, Ideal.exp (scores x W c b h t j' - Spec.top (scores x W c b h t)) := by
  rw [val_main_v21_apply, val_main_cst_3_apply, Ideal.ofBits_def, Ideal.ofBits_zero_f32, zero_add]
  refine Finset.sum_congr rfl fun j' _ => ?_
  rw [sum_idx, exps_apply]

theorem sum_bcast_idx (b : Fin 4) (h : Fin 16) (t : Fin 2048) (j : Fin 2048) :
    idx_main_v22 (idx_main_v23 (ix4 b h t j)) = ix3 b h t :=
  funext fun a => Fin.ext (by match a with | ⟨0, _⟩ => rfl | ⟨1, _⟩ => rfl | ⟨2, _⟩ => rfl)

/-- The weights at (b, h, t, j). -/
theorem weights_apply (b : Fin 4) (h : Fin 16) (t : Fin 2048) (j : Fin 2048) :
    val_main_v24 (F := Ideal) x W c (ix4 b h t j)
      = Ideal.div (Ideal.exp (scores x W c b h t j - Spec.top (scores x W c b h t)))
          (∑ j' : Fin 2048, Ideal.exp (scores x W c b h t j' - Spec.top (scores x W c b h t))) := by
  rw [val_main_v24_apply, val_main_v23_apply, val_main_v22_apply, sum_bcast_idx, sums_apply, exps_apply,
    Ideal.hostDivf_def]

theorem head_lidx (b : Fin 4) (h : Fin 16) (t : Fin 2048) (e : Fin 64) (j : Fin 2048) :
    lidx_main_v25 (ix4 b h t e) j = ix4 b h t j :=
  funext fun a => Fin.ext (by match a with | ⟨0, _⟩ => rfl | ⟨1, _⟩ => rfl | ⟨2, _⟩ => rfl | ⟨3, _⟩ => rfl)

theorem head_ridx (b : Fin 4) (h : Fin 16) (t : Fin 2048) (e : Fin 64) (j : Fin 2048) :
    ridx_main_v25 (ix4 b h t e) j = ix4 b h j e :=
  funext fun a => Fin.ext (by match a with | ⟨0, _⟩ => rfl | ⟨1, _⟩ => rfl | ⟨2, _⟩ => rfl | ⟨3, _⟩ => rfl)

/-- One head's output at (b, h, t, e). -/
theorem head_apply (b : Fin 4) (h : Fin 16) (t : Fin 2048) (e : Fin 64) :
    val_main_v25 (F := Ideal) x W c (ix4 b h t e)
      = Spec.head (row x b h t) (fun j => row x b h j) (Wb W 0 (by decide)) (cb c 0 (by decide))
          (Wb W 64 (by decide)) (cb c 64 (by decide)) (Wb W 128 (by decide)) (cb c 128 (by decide)) e := by
  rw [val_main_v25_apply]
  unfold Spec.head
  refine Finset.sum_congr rfl fun j _ => ?_
  rw [head_lidx, head_ridx, weights_apply, v_apply]

end Cert.ReferenceIdeal.RefValue

end
-- ==== Proof.RefIsSpec.lean ====
/-
  The reference program's result is the specification.

  After the heads' outputs are computed at (b, h, t, e), the reference swaps the two middle axes back and flattens
  [4, 2048, 16, 64] to [4, 2048, 1024]: the entry at (b, t, g) is the head g / 64 at channel g % 64, because the
  row-major position of (b, t, g) in [4, 2048, 1024] is that of (b, t, g / 64, g % 64) in [4, 2048, 16, 64]. The last
  product contracts g against the second axis of the 1024x1024 matrix, and the 1024-vector is added:
      out[b, t, f] = (sum over g < 1024 of attn[b, t, g] * Wp[f, g]) + cp[f].
-/
import proofs.«144325_j47253230190881_2_alg».proof.Proof.RefScores

noncomputable section

namespace Cert.ReferenceIdeal.RefValue

open Cert.ReferenceIdeal Cert.ReferenceIdeal.Gen Cert.ReferenceIdeal.Read Idealize.ShloMosaic Idealize.ShloMosaic.ValueIdx

/-- The entry of the heads' outputs that the swap of axes and the flattening put at (b, t, g) is the one at
    (b, g / 64, t, g % 64). -/
theorem merge_heads_idx (b : Fin 4) (t : Fin 2048) (g : Fin 1024) :
    idx_main_v26 (idx_main_v27 (ix3 b t g))
      = ix4 b (⟨g.val / 64, by have := g.isLt; omega⟩ : Fin 16) t (⟨g.val % 64, Nat.mod_lt _ (by decide)⟩ : Fin 64) := by
  funext a
  apply Fin.ext
  have hb := b.isLt; have ht := t.isLt; have hg := g.isLt
  match a with
  | ⟨0, _⟩ => show (((b.val * 2048 + t.val) * 1024 + g.val) / 2097152 = b.val); omega
  | ⟨1, _⟩ => show (((b.val * 2048 + t.val) * 1024 + g.val) / 64 % 16 = g.val / 64); omega
  | ⟨2, _⟩ => show (((b.val * 2048 + t.val) * 1024 + g.val) / 1024 % 2048 = t.val); omega
  | ⟨3, _⟩ => show (((b.val * 2048 + t.val) * 1024 + g.val) % 64 = g.val % 64); omega

variable (x : FVec Ideal S4x2048x1024 .f32) (W : FVec Ideal S192x64 .f32) (c : FVec Ideal S192 .f32)
  (Wp : FVec Ideal S1024x1024 .f32) (cp : FVec Ideal S1024 .f32)

/-- The heads' outputs laid side by side, at (b, t, g). -/
theorem merged_apply (b : Fin 4) (t : Fin 2048) (g : Fin 1024) :
    val_main_v27 (F := Ideal) x W c (ix3 b t g) = Spec.attnFlat x W c b t g := by
  rw [val_main_v27_apply, val_main_v26_apply, merge_heads_idx, head_apply]
  rfl

theorem proj_lidx (b : Fin 4) (t : Fin 2048) (f : Fin 1024) (g : Fin 1024) :
    lidx_main_v28 (ix3 b t f) g = ix3 b t g :=
  funext fun a => Fin.ext (by match a with | ⟨0, _⟩ => rfl | ⟨1, _⟩ => rfl | ⟨2, _⟩ => rfl)

theorem proj_ridx (b : Fin 4) (t : Fin 2048) (f : Fin 1024) (g : Fin 1024) :
    ridx_main_v28 (ix3 b t f) g = ix2 f g :=
  funext fun a => Fin.ext (by match a with | ⟨0, _⟩ => rfl | ⟨1, _⟩ => rfl)

theorem proj_bias_idx (b : Fin 4) (t : Fin 2048) (f : Fin 1024) :
    idx_main_v29 (idx_main_v30 (ix3 b t f)) = ix1 f :=
  funext fun a => Fin.ext (by match a with | ⟨0, _⟩ => rfl)

/-- The reference's result at (b, t, f). -/
theorem result_apply (b : Fin 4) (t : Fin 2048) (f : Fin 1024) :
    val_main_v31 (F := Ideal) x W c Wp cp (ix3 b t f) = Spec.outAt x W c Wp cp b t f := by
  rw [val_main_v31_apply, val_main_v28_apply, val_main_v30_apply, val_main_v29_apply, proj_bias_idx, Ideal.addf_def]
  unfold Spec.outAt
  refine congrArg (· + cp (ix1 f)) (Finset.sum_congr rfl fun g _ => ?_)
  rw [proj_lidx, proj_ridx, merged_apply]

/-- The reference's result, as a function of its five arguments, is the specification. -/
theorem ref_eq :
    val_main_v31 (F := Ideal) x W c Wp cp = Spec.out x W c Wp cp := by
  funext i
  obtain ⟨b, t, f, rfl⟩ : ∃ (b : Fin 4) (t : Fin 2048) (f : Fin 1024), i = ix3 b t f := ⟨i 0, i 1, i 2, eq_ix3 i⟩
  rw [result_apply, Spec.out_apply]

/-- The same for the term the reference's run states for its result: that term is the last stage. -/
theorem res_eq (m : (ℓ : Loc nD τ sig) → Buf (Elt Ideal) ℓ) (d : Dev nD) :
    Cert.ReferenceIdeal.Value.res_main_v31 (F := Ideal) m d
      = Spec.out (m ((d.tc : Thread nD τ).loc main_arg0)) (m ((d.tc : Thread nD τ).loc main_arg1))
          (m ((d.tc : Thread nD τ).loc main_arg2)) (m ((d.tc : Thread nD τ).loc main_arg3))
          (m ((d.tc : Thread nD τ).loc main_arg4)) :=
  (val_main_v31_eq (F := Ideal) m d).trans (ref_eq _ _ _ _ _)

end Cert.ReferenceIdeal.RefValue

end
-- ==== Proof.lean ====
/-
  A multi-head self-attention layer as two kernel regions, against its plain formulation.

  The kernel's program rounds its operands to bf16 (no change over the extended reals), runs one region that, per
  batch, pair of heads and tile of 512 query rows, projects the tile and the whole key / value band by the shared
  64 x 64 maps, scores, normalises by the row's exponentials and mixes the value rows, and a second region that
  multiplies 512-row blocks of the result by the transposed output matrix and adds the output vector. The reference
  does the same with whole-array operations and computes the scale as 1 / sqrt 64 where the kernel has the word one
  eighth. Over the extended reals both results are one function of the arguments, `Cert.Spec.out`:
  the kernel's side is its run read back through the items (the regions' output arrays block by block, then the host
  stretches), the reference's side its own run read operation by operation. No finiteness of the inputs is used.

  The frames: each program runs to the end on every weakly fair execution and no item writes an argument. The
  attention region reads the input array through two windows; the array is held half by each during the region.
-/
import proofs.«144325_j47253230190881_2_alg».proof.Defs
import proofs.«144325_j47253230190881_2_alg».proof.Proof.Gen.Kernel
import proofs.«144325_j47253230190881_2_alg».proof.Proof.Gen.KernelIdeal
import proofs.«144325_j47253230190881_2_alg».proof.Proof.Gen.ReferenceIdeal
import proofs.«144325_j47253230190881_2_alg».proof.Proof.Gen.Pre_finite_inputs
import proofs.«144325_j47253230190881_2_alg».proof.Proof.Gen.ReferenceIdeal.Run
import proofs.«144325_j47253230190881_2_alg».proof.Proof.KArgs
import proofs.«144325_j47253230190881_2_alg».proof.Proof.Args
import proofs.«144325_j47253230190881_2_alg».proof.Proof.RunValue
import proofs.«144325_j47253230190881_2_alg».proof.Proof.Bridge
import proofs.«144325_j47253230190881_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Fr.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Fr.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with their result buffer at `Cert.Spec.out` of the arguments, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨?_,
        (h c _ (Cert.KernelIdeal.Fr.mem_uc Cert.KernelIdeal.main_arg0 (by decide))).trans (Cert.KernelIdeal.Fr.W5_arg0 m c),
        (h c _ (Cert.KernelIdeal.Fr.mem_uc Cert.KernelIdeal.main_arg1 (by decide))).trans (Cert.KernelIdeal.Fr.W5_arg1 m c),
        (h c _ (Cert.KernelIdeal.Fr.mem_uc Cert.KernelIdeal.main_arg2 (by decide))).trans (Cert.KernelIdeal.Fr.W5_arg2 m c),
        (h c _ (Cert.KernelIdeal.Fr.mem_uc Cert.KernelIdeal.main_arg3 (by decide))).trans (Cert.KernelIdeal.Fr.W5_arg3 m c),
        (h c _ (Cert.KernelIdeal.Fr.mem_uc Cert.KernelIdeal.main_arg4 (by decide))).trans (Cert.KernelIdeal.Fr.W5_arg4 m c)⟩)
      (Cert.KernelIdeal.Fr.run_all (F := Ideal) m ρ)
    exact ((h c _ (Cert.KernelIdeal.Fr.mem_uc Cert.KernelIdeal.main_v14 (by decide))).trans (Cert.KernelIdeal.Fr.W5_value m c)).trans
      (Cert.KernelIdeal.KV.value_eq _ _ _ _ _)
  · refine (θ_run Cert.ReferenceIdeal.defs _ _).mono (fun r h c => ⟨?_, (h c).2⟩)
      (Cert.ReferenceIdeal.Value.run (F := Ideal) m' ρ')
    rw [(h c).1, Cert.ReferenceIdeal.RefValue.res_eq, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
